-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x32x32 : Shape := ⟨4, ![4096, 3, 32, 32]⟩
abbrev S3x96x180 : Shape := ⟨3, ![3, 96, 180]⟩
abbrev S1x180 : Shape := ⟨2, ![1, 180]⟩
abbrev S3x174x208 : Shape := ⟨3, ![3, 174, 208]⟩
abbrev S1x208 : Shape := ⟨2, ![1, 208]⟩
abbrev S6x192x120 : Shape := ⟨3, ![6, 192, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S_ : Shape := ⟨0, ![]⟩

class Facts : Prop where
  bcast_S_S4096x3x32x32 : S_.BroadcastsInDim S4096x3x32x32 (![] : Fin 0 → Fin S4096x3x32x32.rank)
  reducesTo_S4096x3x32x32_S_d0_1_2_3 : S4096x3x32x32.ReducesTo [0, 1, 2, 3] S_
  h_S_ : 0 < S_.numel
  bcast_S_S3x96x180 : S_.BroadcastsInDim S3x96x180 (![] : Fin 0 → Fin S3x96x180.rank)
  reducesTo_S3x96x180_S_d0_1_2 : S3x96x180.ReducesTo [0, 1, 2] S_
  bcast_S_S1x180 : S_.BroadcastsInDim S1x180 (![] : Fin 0 → Fin S1x180.rank)
  reducesTo_S1x180_S_d0_1 : S1x180.ReducesTo [0, 1] S_
  bcast_S_S3x174x208 : S_.BroadcastsInDim S3x174x208 (![] : Fin 0 → Fin S3x174x208.rank)
  reducesTo_S3x174x208_S_d0_1_2 : S3x174x208.ReducesTo [0, 1, 2] S_
  bcast_S_S1x208 : S_.BroadcastsInDim S1x208 (![] : Fin 0 → Fin S1x208.rank)
  reducesTo_S1x208_S_d0_1 : S1x208.ReducesTo [0, 1] S_
  bcast_S_S6x192x120 : S_.BroadcastsInDim S6x192x120 (![] : Fin 0 → Fin S6x192x120.rank)
  reducesTo_S6x192x120_S_d0_1_2 : S6x192x120.ReducesTo [0, 1, 2] S_
  bcast_S_S1x120 : S_.BroadcastsInDim S1x120 (![] : Fin 0 → Fin S1x120.rank)
  reducesTo_S1x120_S_d0_1 : S1x120.ReducesTo [0, 1] S_
  bcast_S_S120x84 : S_.BroadcastsInDim S120x84 (![] : Fin 0 → Fin S120x84.rank)
  reducesTo_S120x84_S_d0_1 : S120x84.ReducesTo [0, 1] S_
  bcast_S_S1x84 : S_.BroadcastsInDim S1x84 (![] : Fin 0 → Fin S1x84.rank)
  reducesTo_S1x84_S_d0_1 : S1x84.ReducesTo [0, 1] S_
  bcast_S_S84x128 : S_.BroadcastsInDim S84x128 (![] : Fin 0 → Fin S84x128.rank)
  reducesTo_S84x128_S_d0_1 : S84x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  main_v53

def fn_part2 {F : FTy → Type} [FloatOps F] (main_arg7 : FVec F S120x84 .f32) (main_arg8 : FVec F S1x84 .f32) (main_arg9 : FVec F S84x128 .f32) (main_arg10 : FVec F S1x128 .f32) (main_v33 : IVec S_ 1) : IVec S_ 1 :=
  let main_v34 : FVec F S120x84 .f32 := Host.absf main_arg7
  let main_cst_12 : FVec F S_ .f32 := constant S_ .f32 0x7F800000#32
  let main_v35 : FVec F S120x84 .f32 := broadcastInDim S120x84 ![] bcast_S_S120x84 main_cst_12
  let main_v36 : IVec S120x84 1 := cmpf .olt main_v34 main_v35
  let main_c_13 : IVec S_ 1 := constantI S_ 1 1#1
  let main_v37 : IVec S_ 1 := (fun x v => Host.reduce IntOp.andi x v reducesTo_S120x84_S_d0_1 h_S_) main_v36 main_c_13
  let main_v38 : IVec S_ 1 := andi main_v33 main_v37
  let main_v39 : FVec F S1x84 .f32 := Host.absf main_arg8
  let main_cst_14 : FVec F S_ .f32 := constant S_ .f32 0x7F800000#32
  let main_v40 : FVec F S1x84 .f32 := broadcastInDim S1x84 ![] bcast_S_S1x84 main_cst_14
  let main_v41 : IVec S1x84 1 := cmpf .olt main_v39 main_v40
  let main_c_15 : IVec S_ 1 := constantI S_ 1 1#1
  let main_v42 : IVec S_ 1 := (fun x v => Host.reduce IntOp.andi x v reducesTo_S1x84_S_d0_1 h_S_) main_v41 main_c_15
  let main_v43 : IVec S_ 1 := andi main_v38 main_v42
  let main_v44 : FVec F S84x128 .f32 := Host.absf main_arg9
  let main_cst_16 : FVec F S_ .f32 := constant S_ .f32 0x7F800000#32
  let main_v45 : FVec F S84x128 .f32 := broadcastInDim S84x128 ![] bcast_S_S84x128 main_cst_16
  let main_v46 : IVec S84x128 1 := cmpf .olt main_v44 main_v45
  let main_c_17 : IVec S_ 1 := constantI S_ 1 1#1
  let main_v47 : IVec S_ 1 := (fun x v => Host.reduce IntOp.andi x v reducesTo_S84x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_v48 main_v49 main_v50

def fn_part1 {F : FTy → Type} [FloatOps F] (main_arg4 : FVec F S1x208 .f32) (main_arg5 : FVec F S6x192x120 .f32) (main_arg6 : FVec F S1x120 .f32) (main_arg7 : FVec F S120x84 .f32) (main_arg8 : FVec F S1x84 .f32) (main_arg9 : FVec F S84x128 .f32) (main_arg10 : FVec F S1x128 .f32) (main_v13 : IVec S_ 1) (main_v16 : IVec S3x174x208 1) : IVec S_ 1 :=
  let main_c_5 : IVec S_ 1 := constantI S_ 1 1#1
  let main_v17 : IVec S_ 1 := (fun x v => Host.reduce IntOp.andi x v reducesTo_S3x174x208_S_d0_1_2 h_S_) main_v16 main_c_5
  let main_v18 : IVec S_ 1 := andi main_v13 main_v17
  let main_v19 : FVec F S1x208 .f32 := Host.absf main_arg4
  let main_cst_6 : FVec F S_ .f32 := constant S_ .f32 0x7F800000#32
  let main_v20 : FVec F S1x208 .f32 := broadcastInDim S1x208 ![] bcast_S_S1x208 main_cst_6
  let main_v21 : IVec S1x208 1 := cmpf .olt main_v19 main_v20
  let main_c_7 : IVec S_ 1 := constantI S_ 1 1#1
  let main_v22 : IVec S_ 1 := (fun x v => Host.reduce IntOp.andi x v reducesTo_S1x208_S_d0_1 h_S_) main_v21 main_c_7
  let main_v23 : IVec S_ 1 := andi main_v18 main_v22
  let main_v24 : FVec F S6x192x120 .f32 := Host.absf main_arg5
  let main_cst_8 : FVec F S_ .f32 := constant S_ .f32 0x7F800000#32
  let main_v25 : FVec F S6x192x120 .f32 := broadcastInDim S6x192x120 ![] bcast_S_S6x192x120 main_cst_8
  let main_v26 : IVec S6x192x120 1 := cmpf .olt main_v24 main_v25
  let main_c_9 : IVec S_ 1 := constantI S_ 1 1#1
  let main_v27 : IVec S_ 1 := (fun x v => Host.reduce IntOp.andi x v reducesTo_S6x192x120_S_d0_1_2 h_S_) main_v26 main_c_9
  let main_v28 : IVec S_ 1 := andi main_v23 main_v27
  let main_v29 : FVec F S1x120 .f32 := Host.absf main_arg6
  let main_cst_10 : FVec F S_ .f32 := constant S_ .f32 0x7F800000#32
  let main_v30 : FVec F S1x120 .f32 := broadcastInDim S1x120 ![] bcast_S_S1x120 main_cst_10
  let main_v31 : IVec S1x120 1 := cmpf .olt main_v29 main_v30
  let main_c_11 : IVec S_ 1 := constantI S_ 1 1#1
  let main_v32 : IVec S_ 1 := (fun x v => Host.reduce IntOp.andi x v reducesTo_S1x120_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x3x32x32 .f32) (main_arg1 : FVec F S3x96x180 .f32) (main_arg2 : FVec F S1x180 .f32) (main_arg3 : FVec F S3x174x208 .f32) (main_arg4 : FVec F S1x208 .f32) (main_arg5 : FVec F S6x192x120 .f32) (main_arg6 : FVec F S1x120 .f32) (main_arg7 : FVec F S120x84 .f32) (main_arg8 : FVec F S1x84 .f32) (main_arg9 : FVec F S84x128 .f32) (main_arg10 : FVec F S1x128 .f32) : IVec S_ 1 :=
  let main_v0 : FVec F S4096x3x32x32 .f32 := Host.absf main_arg0
  let main_cst : FVec F S_ .f32 := constant S_ .f32 0x7F800000#32
  let main_v1 : FVec F S4096x3x32x32 .f32 := broadcastInDim S4096x3x32x32 ![] bcast_S_S4096x3x32x32 main_cst
  let main_v2 : IVec S4096x3x32x32 1 := cmpf .olt main_v0 main_v1
  let main_c : IVec S_ 1 := constantI S_ 1 1#1
  let main_v3 : IVec S_ 1 := (fun x v => Host.reduce IntOp.andi x v reducesTo_S4096x3x32x32_S_d0_1_2_3 h_S_) main_v2 main_c
  let main_v4 : FVec F S3x96x180 .f32 := Host.absf main_arg1
  let main_cst_0 : FVec F S_ .f32 := constant S_ .f32 0x7F800000#32
  let main_v5 : FVec F S3x96x180 .f32 := broadcastInDim S3x96x180 ![] bcast_S_S3x96x180 main_cst_0
  let main_v6 : IVec S3x96x180 1 := cmpf .olt main_v4 main_v5
  let main_c_1 : IVec S_ 1 := constantI S_ 1 1#1
  let main_v7 : IVec S_ 1 := (fun x v => Host.reduce IntOp.andi x v reducesTo_S3x96x180_S_d0_1_2 h_S_) main_v6 main_c_1
  let main_v8 : IVec S_ 1 := andi main_v3 main_v7
  let main_v9 : FVec F S1x180 .f32 := Host.absf main_arg2
  let main_cst_2 : FVec F S_ .f32 := constant S_ .f32 0x7F800000#32
  let main_v10 : FVec F S1x180 .f32 := broadcastInDim S1x180 ![] bcast_S_S1x180 main_cst_2
  let main_v11 : IVec S1x180 1 := cmpf .olt main_v9 main_v10
  let main_c_3 : IVec S_ 1 := constantI S_ 1 1#1
  let main_v12 : IVec S_ 1 := (fun x v => Host.reduce IntOp.andi x v reducesTo_S1x180_S_d0_1 h_S_) main_v11 main_c_3
  let main_v13 : IVec S_ 1 := andi main_v8 main_v12
  let main_v14 : FVec F S3x174x208 .f32 := Host.absf main_arg3
  let main_cst_4 : FVec F S_ .f32 := constant S_ .f32 0x7F800000#32
  let main_v15 : FVec F S3x174x208 .f32 := broadcastInDim S3x174x208 ![] bcast_S_S3x174x208 main_cst_4
  let main_v16 : IVec S3x174x208 1 := cmpf .olt main_v14 main_v15
  fn_part1 (F := F) main_arg4 main_arg5 main_arg6 main_arg7 main_arg8 main_arg9 main_arg10 main_v13 main_v16
-- ==== Kernel.lean ====
abbrev S4096x3x32x32 : Shape := ⟨4, ![4096, 3, 32, 32]⟩
abbrev S3x96x180 : Shape := ⟨3, ![3, 96, 180]⟩
abbrev S1x180 : Shape := ⟨2, ![1, 180]⟩
abbrev S3x174x208 : Shape := ⟨3, ![3, 174, 208]⟩
abbrev S1x208 : Shape := ⟨2, ![1, 208]⟩
abbrev S6x192x120 : Shape := ⟨3, ![6, 192, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S4096x32x32x3 : Shape := ⟨4, ![4096, 32, 32, 3]⟩
abbrev S4096x32x96 : Shape := ⟨3, ![4096, 32, 96]⟩
abbrev S32x128x32x96 : Shape := ⟨4, ![32, 128, 32, 96]⟩
abbrev S32x32x128x96 : Shape := ⟨4, ![32, 32, 128, 96]⟩
abbrev S131072x96 : Shape := ⟨2, ![131072, 96]⟩
abbrev S4096x128 : Shape := ⟨2, ![4096, 128]⟩
abbrev S4096x96 : Shape := ⟨2, ![4096, 96]⟩
abbrev S128x128 : Shape := ⟨2, ![128, 128]⟩
abbrev S3840x96 : Shape := ⟨2, ![3840, 96]⟩
abbrev S1x96x180 : Shape := ⟨3, ![1, 96, 180]⟩
abbrev S96x180 : Shape := ⟨2, ![96, 180]⟩
abbrev S3840x180 : Shape := ⟨2, ![3840, 180]⟩
abbrev S3712x180 : Shape := ⟨2, ![3712, 180]⟩
abbrev S3712x174 : Shape := ⟨2, ![3712, 174]⟩
abbrev S3200x174 : Shape := ⟨2, ![3200, 174]⟩
abbrev S1x174x208 : Shape := ⟨3, ![1, 174, 208]⟩
abbrev S174x208 : Shape := ⟨2, ![174, 208]⟩
abbrev S3200x208 : Shape := ⟨2, ![3200, 208]⟩
abbrev S2944x208 : Shape := ⟨2, ![2944, 208]⟩
abbrev S2944x192 : Shape := ⟨2, ![2944, 192]⟩
abbrev S128x192 : Shape := ⟨2, ![128, 192]⟩
abbrev S1x192x120 : Shape := ⟨3, ![1, 192, 120]⟩
abbrev S192x120 : Shape := ⟨2, ![192, 120]⟩
abbrev S128x120 : Shape := ⟨2, ![128, 120]⟩
abbrev S128x84 : Shape := ⟨2, ![128, 84]⟩
abbrev S4096x10 : Shape := ⟨2, ![4096, 10]⟩

abbrev nBuf : Space → Nat
  | .hbm => 24
  | .vmem => 14
  | .smem => 0
  | _ => 0

abbrev bufTy : (tb : Table) → Fin (tcTables nBuf tb) → BufTy
  | .hbm, ⟨0, _⟩ => ⟨S4096x3x32x32, .f32⟩
  | .hbm, ⟨1, _⟩ => ⟨S3x96x180, .f32⟩
  | .hbm, ⟨2, _⟩ => ⟨S1x180, .f32⟩
  | .hbm, ⟨3, _⟩ => ⟨S3x174x208, .f32⟩
  | .hbm, ⟨4, _⟩ => ⟨S1x208, .f32⟩
  | .hbm, ⟨5, _⟩ => ⟨S6x192x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x128, .f32⟩
  | .hbm, ⟨10, _⟩ => ⟨S1x128, .f32⟩
  | .hbm, ⟨11, _⟩ => ⟨S4096x3x32x32, .bf16⟩
  | .hbm, ⟨12, _⟩ => ⟨S4096x32x32x3, .bf16⟩
  | .hbm, ⟨13, _⟩ => ⟨S4096x32x96, .bf16⟩
  | .hbm, ⟨14, _⟩ => ⟨S32x128x32x96, .bf16⟩
  | .hbm, ⟨15, _⟩ => ⟨S32x32x128x96, .bf16⟩
  | .hbm, ⟨16, _⟩ => ⟨S131072x96, .bf16⟩
  | .hbm, ⟨17, _⟩ => ⟨S3x96x180, .bf16⟩
  | .hbm, ⟨18, _⟩ => ⟨S3x174x208, .bf16⟩
  | .hbm, ⟨19, _⟩ => ⟨S6x192x120, .bf16⟩
  | .hbm, ⟨20, _⟩ => ⟨S120x84, .bf16⟩
  | .hbm, ⟨21, _⟩ => ⟨S84x128, .bf16⟩
  | .hbm, ⟨22, _⟩ => ⟨S4096x128, .f32⟩
  | .hbm, ⟨23, _⟩ => ⟨S4096x10, .f32⟩
  | .local _ .vmem, ⟨0, _⟩ => ⟨S4096x96, .bf16⟩
  | .local _ .vmem, ⟨1, _⟩ => ⟨S4096x96, .bf16⟩
  | .local _ .vmem, ⟨2, _⟩ => ⟨S3x96x180, .bf16⟩
  | .local _ .vmem, ⟨3, _⟩ => ⟨S1x180, .f32⟩
  | .local _ .vmem, ⟨4, _⟩ => ⟨S3x174x208, .bf16⟩
  | .local _ .vmem, ⟨5, _⟩ => ⟨S1x208, .f32⟩
  | .local _ .vmem, ⟨6, _⟩ => ⟨S6x192x120, .bf16⟩
  | .local _ .vmem, ⟨7, _⟩ => ⟨S1x120, .f32⟩
  | .local _ .vmem, ⟨8, _⟩ => ⟨S120x84, .bf16⟩
  | .local _ .vmem, ⟨9, _⟩ => ⟨S1x84, .f32⟩
  | .local _ .vmem, ⟨10, _⟩ => ⟨S84x128, .bf16⟩
  | .local _ .vmem, ⟨11, _⟩ => ⟨S1x128, .f32⟩
  | .local _ .vmem, ⟨12, _⟩ => ⟨S128x128, .f32⟩
  | .local _ .vmem, ⟨13, _⟩ => ⟨S128x128, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x96x180 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x180 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x174x208 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x208 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x192x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S4096x3x32x32_S4096x32x32x3_0_2_3_1 : S4096x3x32x32.Transposes [0, 2, 3, 1] S4096x32x32x3
  shapeCasts_S4096x32x32x3_S4096x32x96 : S4096x32x32x3.ShapeCasts S4096x32x96
  shapeCasts_S4096x32x96_S32x128x32x96 : S4096x32x96.ShapeCasts S32x128x32x96
  transposes_S32x128x32x96_S32x32x128x96_0_2_1_3 : S32x128x32x96.Transposes [0, 2, 1, 3] S32x32x128x96
  shapeCasts_S32x32x128x96_S131072x96 : S32x32x128x96.ShapeCasts S131072x96
  inb_S4096x96_S4096x96_0_0 : ∀ a, (![0, 0] : Fin 2 → Nat) a + S4096x96.size a ≤ S4096x96.size a
  h_S4096x96 : 0 < S4096x96.numel
  shapeCasts_S4096x96_S4096x96 : S4096x96.ShapeCasts S4096x96
  slices_S4096x96_o0_0_S3840x96 : S4096x96.Slices ![0, 0] S3840x96
  inb_S3x96x180_S1x96x180_0_0_0 : ∀ a, (![0, 0, 0] : Fin 3 → Nat) a + S1x96x180.size a ≤ S3x96x180.size a
  h_S1x96x180 : 0 < S1x96x180.numel
  shapeCasts_S1x96x180_S96x180 : S1x96x180.ShapeCasts S96x180
  slices_S4096x96_o128_0_S3840x96 : S4096x96.Slices ![128, 0] S3840x96
  inb_S3x96x180_S1x96x180_1_0_0 : ∀ a, (![1, 0, 0] : Fin 3 → Nat) a + S1x96x180.size a ≤ S3x96x180.size a
  slices_S4096x96_o256_0_S3840x96 : S4096x96.Slices ![256, 0] S3840x96
  inb_S3x96x180_S1x96x180_2_0_0 : ∀ a, (![2, 0, 0] : Fin 3 → Nat) a + S1x96x180.size a ≤ S3x96x180.size a
  inb_S1x180_S1x180_0_0 : ∀ a, (![0, 0] : Fin 2 → Nat) a + S1x180.size a ≤ S1x180.size a
  h_S1x180 : 0 < S1x180.numel
  broadcasts_S1x180_S3840x180 : S1x180.Broadcasts S3840x180
  slices_S3840x180_o0_0_S3712x180 : S3840x180.Slices ![0, 0] S3712x180
  slices_S3840x180_o128_0_S3712x180 : S3840x180.Slices ![128, 0] S3712x180
  slices_S3712x180_o0_0_S3712x174 : S3712x180.Slices ![0, 0] S3712x174
  slices_S3712x180_o0_6_S3712x174 : S3712x180.Slices ![0, 6] S3712x174
  slices_S3712x174_o0_0_S3200x174 : S3712x174.Slices ![0, 0] S3200x174
  inb_S3x174x208_S1x174x208_0_0_0 : ∀ a, (![0, 0, 0] : Fin 3 → Nat) a + S1x174x208.size a ≤ S3x174x208.size a
  h_S1x174x208 : 0 < S1x174x208.numel
  shapeCasts_S1x174x208_S174x208 : S1x174x208.ShapeCasts S174x208
  slices_S3712x174_o256_0_S3200x174 : S3712x174.Slices ![256, 0] S3200x174
  inb_S3x174x208_S1x174x208_1_0_0 : ∀ a, (![1, 0, 0] : Fin 3 → Nat) a + S1x174x208.size a ≤ S3x174x208.size a
  slices_S3712x174_o512_0_S3200x174 : S3712x174.Slices ![512, 0] S3200x174
  inb_S3x174x208_S1x174x208_2_0_0 : ∀ a, (![2, 0, 0] : Fin 3 → Nat) a + S1x174x208.size a ≤ S3x174x208.size a
  inb_S1x208_S1x208_0_0 : ∀ a, (![0, 0] : Fin 2 → Nat) a + S1x208.size a ≤ S1x208.size a
  h_S1x208 : 0 < S1x208.numel
  broadcasts_S1x208_S3200x208 : S1x208.Broadcasts S3200x208
  slices_S3200x208_o0_0_S2944x208 : S3200x208.Slices ![0, 0] S2944x208
  slices_S3200x208_o256_0_S2944x208 : S3200x208.Slices ![256, 0] S2944x208
  slices_S2944x208_o0_0_S2944x192 : S2944x208.Slices ![0, 0] S2944x192
  slices_S2944x208_o0_16_S2944x192 : S2944x208.Slices ![0, 16] S2944x192
  slices_S2944x192_o0_0_S128x192 : S2944x192.Slices ![0, 0] S128x192
  inb_S6x192x120_S1x192x120_0_0_0 : ∀ a, (![0, 0, 0] : Fin 3 → Nat) a + S1x192x120.size a ≤ S6x192x120.size a
  h_S1x192x120 : 0 < S1x192x120.numel
  shapeCasts_S1x192x120_S192x120 : S1x192x120.ShapeCasts S192x120
  slices_S2944x192_o512_0_S128x192 : S2944x192.Slices ![512, 0] S128x192
  inb_S6x192x120_S1x192x120_1_0_0 : ∀ a, (![1, 0, 0] : Fin 3 → Nat) a + S1x192x120.size a ≤ S6x192x120.size a
  slices_S2944x192_o1024_0_S128x192 : S2944x192.Slices ![1024, 0] S128x192
  inb_S6x192x120_S1x192x120_2_0_0 : ∀ a, (![2, 0, 0] : Fin 3 → Nat) a + S1x192x120.size a ≤ S6x192x120.size a
  slices_S2944x192_o1536_0_S128x192 : S2944x192.Slices ![1536, 0] S128x192
  inb_S6x192x120_S1x192x120_3_0_0 : ∀ a, (![3, 0, 0] : Fin 3 → Nat) a + S1x192x120.size a ≤ S6x192x120.size a
  slices_S2944x192_o2048_0_S128x192 : S2944x192.Slices ![2048, 0] S128x192
  inb_S6x192x120_S1x192x120_4_0_0 : ∀ a, (![4, 0, 0] : Fin 3 → Nat) a + S1x192x120.size a ≤ S6x192x120.size a
  slices_S2944x192_o2560_0_S128x192 : S2944x192.Slices ![2560, 0] S128x192
  inb_S6x192x120_S1x192x120_5_0_0 : ∀ a, (![5, 0, 0] : Fin 3 → Nat) a + S1x192x120.size a ≤ S6x192x120.size a
  inb_S1x120_S1x120_0_0 : ∀ a, (![0, 0] : Fin 2 → Nat) a + S1x120.size a ≤ S1x120.size a
  h_S1x120 : 0 < S1x120.numel
  broadcasts_S1x120_S128x120 : S1x120.Broadcasts S128x120
  inb_S120x84_S120x84_0_0 : ∀ a, (![0, 0] : Fin 2 → Nat) a + S120x84.size a ≤ S120x84.size a
  h_S120x84 : 0 < S120x84.numel
  shapeCasts_S120x84_S120x84 : S120x84.ShapeCasts S120x84
  inb_S1x84_S1x84_0_0 : ∀ a, (![0, 0] : Fin 2 → Nat) a + S1x84.size a ≤ S1x84.size a
  h_S1x84 : 0 < S1x84.numel
  broadcasts_S1x84_S128x84 : S1x84.Broadcasts S128x84
  inb_S84x128_S84x128_0_0 : ∀ a, (![0, 0] : Fin 2 → Nat) a + S84x128.size a ≤ S84x128.size a
  h_S84x128 : 0 < S84x128.numel
  shapeCasts_S84x128_S84x128 : S84x128.ShapeCasts S84x128
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x128_S128x128_0_0 : ∀ a, (![0, 0] : Fin 2 → Nat) a + S128x128.size a ≤ S128x128.size a
  h_S128x128 : 0 < S128x128.numel
  slices_S4096x128_S4096x10_0_0 : S4096x128.Slices ![0, 0] S4096x10
  dot_S3840x96_S96x180_S3840x180_1_0_0_1_n_n_wf : DotDims.WF S3840x96 S96x180 S3840x180 [1] [0] [0] [1] [] []
  dot_S3200x174_S174x208_S3200x208_1_0_0_1_n_n_wf : DotDims.WF S3200x174 S174x208 S3200x208 [1] [0] [0] [1] [] []
  dot_S128x192_S192x120_S128x120_1_0_0_1_n_n_wf : DotDims.WF S128x192 S192x120 S128x120 [1] [0] [0] [1] [] []
  dot_S128x120_S120x84_S128x84_1_0_0_1_n_n_wf : DotDims.WF S128x120 S120x84 S128x84 [1] [0] [0] [1] [] []
  dot_S128x84_S84x128_S128x128_1_0_0_1_n_n_wf : DotDims.WF S128x84 S84x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x96.size a ≤ S131072x96.size a
  hwx0_0 : ∀ i : grid0.Coords, EltTy.bits .bf16 = 32 ∨ (Rect.block (s := S131072x96) S4096x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x96x180.size a ≤ S3x96x180.size a
  hwx0_1 : ∀ i : grid0.Coords, EltTy.bits .bf16 = 32 ∨ (Rect.block (s := S3x96x180) S3x96x180.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x180.size a ≤ S1x180.size a
  hwx0_2 : ∀ i : grid0.Coords, EltTy.bits .f32 = 32 ∨ (Rect.block (s := S1x180) S1x180.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x174x208.size a ≤ S3x174x208.size a
  hwx0_3 : ∀ i : grid0.Coords, EltTy.bits .bf16 = 32 ∨ (Rect.block (s := S3x174x208) S3x174x208.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x208.size a ≤ S1x208.size a
  hwx0_4 : ∀ i : grid0.Coords, EltTy.bits .f32 = 32 ∨ (Rect.block (s := S1x208) S1x208.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x192x120.size a ≤ S6x192x120.size a
  hwx0_5 : ∀ i : grid0.Coords, EltTy.bits .bf16 = 32 ∨ (Rect.block (s := S6x192x120) S6x192x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .bf16 = 32 ∨ (Rect.block (s := S120x84) S120x84.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x128.size a ≤ S84x128.size a
  hwx0_9 : ∀ i : grid0.Coords, EltTy.bits .bf16 = 32 ∨ (Rect.block (s := S84x128) S84x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S4096x128.size a
  hwx0_11 : ∀ i : grid0.Coords, EltTy.bits .f32 = 32 ∨ (Rect.block (s := S4096x128) S128x128.size (cc0_transform_11 i) (hinb0_11 i)).WholeWords (EltTy.packing .f32)

variable [Facts₀]

def dot_S3840x96_S96x180_S3840x180_1_0_0_1_n_n : DotDims S3840x96 S96x180 S3840x180 where
  lhsContracting := [1]
  rhsContracting := [0]
  lhsNonContracting := [0]
  rhsNonContracting := [1]
  lhsBatch := []
  rhsBatch := []
  wf := dot_S3840x96_S96x180_S3840x180_1_0_0_1_n_n_wf
def dot_S3200x174_S174x208_S3200x208_1_0_0_1_n_n : DotDims S3200x174 S174x208 S3200x208 where
  lhsContracting := [1]
  rhsContracting := [0]
  lhsNonContracting := [0]
  rhsNonContracting := [1]
  lhsBatch := []
  rhsBatch := []
  wf := dot_S3200x174_S174x208_S3200x208_1_0_0_1_n_n_wf
def dot_S128x192_S192x120_S128x120_1_0_0_1_n_n : DotDims S128x192 S192x120 S128x120 where
  lhsContracting := [1]
  rhsContracting := [0]
  lhsNonContracting := [0]
  rhsNonContracting := [1]
  lhsBatch := []
  rhsBatch := []
  wf := dot_S128x192_S192x120_S128x120_1_0_0_1_n_n_wf
def dot_S128x120_S120x84_S128x84_1_0_0_1_n_n : DotDims S128x120 S120x84 S128x84 where
  lhsContracting := [1]
  rhsContracting := [0]
  lhsNonContracting := [0]
  rhsNonContracting := [1]
  lhsBatch := []
  rhsBatch := []
  wf := dot_S128x120_S120x84_S128x84_1_0_0_1_n_n_wf
def dot_S128x84_S84x128_S128x128_1_0_0_1_n_n : DotDims S128x84 S84x128 S128x128 where
  lhsContracting := [1]
  rhsContracting := [0]
  lhsNonContracting := [0]
  rhsNonContracting := [1]
  lhsBatch := []
  rhsBatch := []
  wf := dot_S128x84_S84x128_S128x128_1_0_0_1_n_n_wf

abbrev win0_0 : Pipeline.Window sig grid0 :=
  Pipeline.Window.ofSpec (Memref.whole main_v5) S4096x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3x96x180.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x180.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3x174x208.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x208.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S6x192x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S84x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x3x32x32 : Shape := ⟨4, ![4096, 3, 32, 32]⟩
abbrev S3x96x180 : Shape := ⟨3, ![3, 96, 180]⟩
abbrev S1x180 : Shape := ⟨2, ![1, 180]⟩
abbrev S3x174x208 : Shape := ⟨3, ![3, 174, 208]⟩
abbrev S1x208 : Shape := ⟨2, ![1, 208]⟩
abbrev S6x192x120 : Shape := ⟨3, ![6, 192, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S4096x32x32x3 : Shape := ⟨4, ![4096, 32, 32, 3]⟩
abbrev S4096x32x96 : Shape := ⟨3, ![4096, 32, 96]⟩
abbrev S512x8x32x96 : Shape := ⟨4, ![512, 8, 32, 96]⟩
abbrev S512x32x8x96 : Shape := ⟨4, ![512, 32, 8, 96]⟩
abbrev S131072x96 : Shape := ⟨2, ![131072, 96]⟩
abbrev S4096x128 : Shape := ⟨2, ![4096, 128]⟩
abbrev S256x96 : Shape := ⟨2, ![256, 96]⟩
abbrev S8x128 : Shape := ⟨2, ![8, 128]⟩
abbrev S240x96 : Shape := ⟨2, ![240, 96]⟩
abbrev S1x96x180 : Shape := ⟨3, ![1, 96, 180]⟩
abbrev S96x180 : Shape := ⟨2, ![96, 180]⟩
abbrev S240x180 : Shape := ⟨2, ![240, 180]⟩
abbrev S232x180 : Shape := ⟨2, ![232, 180]⟩
abbrev S232x174 : Shape := ⟨2, ![232, 174]⟩
abbrev S200x174 : Shape := ⟨2, ![200, 174]⟩
abbrev S1x174x208 : Shape := ⟨3, ![1, 174, 208]⟩
abbrev S174x208 : Shape := ⟨2, ![174, 208]⟩
abbrev S200x208 : Shape := ⟨2, ![200, 208]⟩
abbrev S184x208 : Shape := ⟨2, ![184, 208]⟩
abbrev S184x192 : Shape := ⟨2, ![184, 192]⟩
abbrev S8x192 : Shape := ⟨2, ![8, 192]⟩
abbrev S1x192x120 : Shape := ⟨3, ![1, 192, 120]⟩
abbrev S192x120 : Shape := ⟨2, ![192, 120]⟩
abbrev S8x120 : Shape := ⟨2, ![8, 120]⟩
abbrev S8x84 : Shape := ⟨2, ![8, 84]⟩
abbrev S4096x10 : Shape := ⟨2, ![4096, 10]⟩

abbrev nBuf : Space → Nat
  | .hbm => 18
  | .vmem => 14
  | .smem => 0
  | _ => 0

abbrev bufTy : (tb : Table) → Fin (tcTables nBuf tb) → BufTy
  | .hbm, ⟨0, _⟩ => ⟨S4096x3x32x32, .f32⟩
  | .hbm, ⟨1, _⟩ => ⟨S3x96x180, .f32⟩
  | .hbm, ⟨2, _⟩ => ⟨S1x180, .f32⟩
  | .hbm, ⟨3, _⟩ => ⟨S3x174x208, .f32⟩
  | .hbm, ⟨4, _⟩ => ⟨S1x208, .f32⟩
  | .hbm, ⟨5, _⟩ => ⟨S6x192x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x128, .f32⟩
  | .hbm, ⟨10, _⟩ => ⟨S1x128, .f32⟩
  | .hbm, ⟨11, _⟩ => ⟨S4096x32x32x3, .f32⟩
  | .hbm, ⟨12, _⟩ => ⟨S4096x32x96, .f32⟩
  | .hbm, ⟨13, _⟩ => ⟨S512x8x32x96, .f32⟩
  | .hbm, ⟨14, _⟩ => ⟨S512x32x8x96, .f32⟩
  | .hbm, ⟨15, _⟩ => ⟨S131072x96, .f32⟩
  | .hbm, ⟨16, _⟩ => ⟨S4096x128, .f32⟩
  | .hbm, ⟨17, _⟩ => ⟨S4096x10, .f32⟩
  | .local _ .vmem, ⟨0, _⟩ => ⟨S256x96, .f32⟩
  | .local _ .vmem, ⟨1, _⟩ => ⟨S256x96, .f32⟩
  | .local _ .vmem, ⟨2, _⟩ => ⟨S3x96x180, .f32⟩
  | .local _ .vmem, ⟨3, _⟩ => ⟨S1x180, .f32⟩
  | .local _ .vmem, ⟨4, _⟩ => ⟨S3x174x208, .f32⟩
  | .local _ .vmem, ⟨5, _⟩ => ⟨S1x208, .f32⟩
  | .local _ .vmem, ⟨6, _⟩ => ⟨S6x192x120, .f32⟩
  | .local _ .vmem, ⟨7, _⟩ => ⟨S1x120, .f32⟩
  | .local _ .vmem, ⟨8, _⟩ => ⟨S120x84, .f32⟩
  | .local _ .vmem, ⟨9, _⟩ => ⟨S1x84, .f32⟩
  | .local _ .vmem, ⟨10, _⟩ => ⟨S84x128, .f32⟩
  | .local _ .vmem, ⟨11, _⟩ => ⟨S1x128, .f32⟩
  | .local _ .vmem, ⟨12, _⟩ => ⟨S8x128, .f32⟩
  | .local _ .vmem, ⟨13, _⟩ => ⟨S8x128, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x96x180 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x180 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x174x208 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x208 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x192x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4096x3x32x32_S4096x32x32x3_0_2_3_1 : S4096x3x32x32.Transposes [0, 2, 3, 1] S4096x32x32x3
  shapeCasts_S4096x32x32x3_S4096x32x96 : S4096x32x32x3.ShapeCasts S4096x32x96
  shapeCasts_S4096x32x96_S512x8x32x96 : S4096x32x96.ShapeCasts S512x8x32x96
  transposes_S512x8x32x96_S512x32x8x96_0_2_1_3 : S512x8x32x96.Transposes [0, 2, 1, 3] S512x32x8x96
  shapeCasts_S512x32x8x96_S131072x96 : S512x32x8x96.ShapeCasts S131072x96
  inb_S256x96_S240x96_0_0 : ∀ a, (![0, 0] : Fin 2 → Nat) a + S240x96.size a ≤ S256x96.size a
  h_S240x96 : 0 < S240x96.numel
  shapeCasts_S240x96_S240x96 : S240x96.ShapeCasts S240x96
  inb_S3x96x180_S1x96x180_0_0_0 : ∀ a, (![0, 0, 0] : Fin 3 → Nat) a + S1x96x180.size a ≤ S3x96x180.size a
  h_S1x96x180 : 0 < S1x96x180.numel
  shapeCasts_S1x96x180_S96x180 : S1x96x180.ShapeCasts S96x180
  inb_S256x96_S240x96_8_0 : ∀ a, (![8, 0] : Fin 2 → Nat) a + S240x96.size a ≤ S256x96.size a
  inb_S3x96x180_S1x96x180_1_0_0 : ∀ a, (![1, 0, 0] : Fin 3 → Nat) a + S1x96x180.size a ≤ S3x96x180.size a
  inb_S256x96_S240x96_16_0 : ∀ a, (![16, 0] : Fin 2 → Nat) a + S240x96.size a ≤ S256x96.size a
  inb_S3x96x180_S1x96x180_2_0_0 : ∀ a, (![2, 0, 0] : Fin 3 → Nat) a + S1x96x180.size a ≤ S3x96x180.size a
  inb_S1x180_S1x180_0_0 : ∀ a, (![0, 0] : Fin 2 → Nat) a + S1x180.size a ≤ S1x180.size a
  h_S1x180 : 0 < S1x180.numel
  broadcasts_S1x180_S240x180 : S1x180.Broadcasts S240x180
  slices_S240x180_o0_0_S232x180 : S240x180.Slices ![0, 0] S232x180
  slices_S240x180_o8_0_S232x180 : S240x180.Slices ![8, 0] S232x180
  slices_S232x180_o0_0_S232x174 : S232x180.Slices ![0, 0] S232x174
  slices_S232x180_o0_6_S232x174 : S232x180.Slices ![0, 6] S232x174
  slices_S232x174_o0_0_S200x174 : S232x174.Slices ![0, 0] S200x174
  inb_S3x174x208_S1x174x208_0_0_0 : ∀ a, (![0, 0, 0] : Fin 3 → Nat) a + S1x174x208.size a ≤ S3x174x208.size a
  h_S1x174x208 : 0 < S1x174x208.numel
  shapeCasts_S1x174x208_S174x208 : S1x174x208.ShapeCasts S174x208
  slices_S232x174_o16_0_S200x174 : S232x174.Slices ![16, 0] S200x174
  inb_S3x174x208_S1x174x208_1_0_0 : ∀ a, (![1, 0, 0] : Fin 3 → Nat) a + S1x174x208.size a ≤ S3x174x208.size a
  slices_S232x174_o32_0_S200x174 : S232x174.Slices ![32, 0] S200x174
  inb_S3x174x208_S1x174x208_2_0_0 : ∀ a, (![2, 0, 0] : Fin 3 → Nat) a + S1x174x208.size a ≤ S3x174x208.size a
  inb_S1x208_S1x208_0_0 : ∀ a, (![0, 0] : Fin 2 → Nat) a + S1x208.size a ≤ S1x208.size a
  h_S1x208 : 0 < S1x208.numel
  broadcasts_S1x208_S200x208 : S1x208.Broadcasts S200x208
  slices_S200x208_o0_0_S184x208 : S200x208.Slices ![0, 0] S184x208
  slices_S200x208_o16_0_S184x208 : S200x208.Slices ![16, 0] S184x208
  slices_S184x208_o0_0_S184x192 : S184x208.Slices ![0, 0] S184x192
  slices_S184x208_o0_16_S184x192 : S184x208.Slices ![0, 16] S184x192
  slices_S184x192_o0_0_S8x192 : S184x192.Slices ![0, 0] S8x192
  inb_S6x192x120_S1x192x120_0_0_0 : ∀ a, (![0, 0, 0] : Fin 3 → Nat) a + S1x192x120.size a ≤ S6x192x120.size a
  h_S1x192x120 : 0 < S1x192x120.numel
  shapeCasts_S1x192x120_S192x120 : S1x192x120.ShapeCasts S192x120
  slices_S184x192_o32_0_S8x192 : S184x192.Slices ![32, 0] S8x192
  inb_S6x192x120_S1x192x120_1_0_0 : ∀ a, (![1, 0, 0] : Fin 3 → Nat) a + S1x192x120.size a ≤ S6x192x120.size a
  slices_S184x192_o64_0_S8x192 : S184x192.Slices ![64, 0] S8x192
  inb_S6x192x120_S1x192x120_2_0_0 : ∀ a, (![2, 0, 0] : Fin 3 → Nat) a + S1x192x120.size a ≤ S6x192x120.size a
  slices_S184x192_o96_0_S8x192 : S184x192.Slices ![96, 0] S8x192
  inb_S6x192x120_S1x192x120_3_0_0 : ∀ a, (![3, 0, 0] : Fin 3 → Nat) a + S1x192x120.size a ≤ S6x192x120.size a
  slices_S184x192_o128_0_S8x192 : S184x192.Slices ![128, 0] S8x192
  inb_S6x192x120_S1x192x120_4_0_0 : ∀ a, (![4, 0, 0] : Fin 3 → Nat) a + S1x192x120.size a ≤ S6x192x120.size a
  slices_S184x192_o160_0_S8x192 : S184x192.Slices ![160, 0] S8x192
  inb_S6x192x120_S1x192x120_5_0_0 : ∀ a, (![5, 0, 0] : Fin 3 → Nat) a + S1x192x120.size a ≤ S6x192x120.size a
  inb_S1x120_S1x120_0_0 : ∀ a, (![0, 0] : Fin 2 → Nat) a + S1x120.size a ≤ S1x120.size a
  h_S1x120 : 0 < S1x120.numel
  broadcasts_S1x120_S8x120 : S1x120.Broadcasts S8x120
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  broadcasts_S1x84_S8x84 : S1x84.Broadcasts S8x84
  inb_S84x128_S84x128_0_0 : ∀ a, (![0, 0] : Fin 2 → Nat) a + S84x128.size a ≤ S84x128.size a
  h_S84x128 : 0 < S84x128.numel
  inb_S1x128_S1x128_0_0 : ∀ a, (![0, 0] : Fin 2 → Nat) a + S1x128.size a ≤ S1x128.size a
  h_S1x128 : 0 < S1x128.numel
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S4096x128_S4096x10_0_0 : S4096x128.Slices ![0, 0] S4096x10
  dot_S240x96_S96x180_S240x180_1_0_0_1_n_n_wf : DotDims.WF S240x96 S96x180 S240x180 [1] [0] [0] [1] [] []
  dot_S200x174_S174x208_S200x208_1_0_0_1_n_n_wf : DotDims.WF S200x174 S174x208 S200x208 [1] [0] [0] [1] [] []
  dot_S8x192_S192x120_S8x120_1_0_0_1_n_n_wf : DotDims.WF S8x192 S192x120 S8x120 [1] [0] [0] [1] [] []
  dot_S8x120_S120x84_S8x84_1_0_0_1_n_n_wf : DotDims.WF S8x120 S120x84 S8x84 [1] [0] [0] [1] [] []
  dot_S8x84_S84x128_S8x128_1_0_0_1_n_n_wf : DotDims.WF S8x84 S84x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x96.size a ≤ S131072x96.size a
  hwx0_0 : ∀ i : grid0.Coords, EltTy.bits .f32 = 32 ∨ (Rect.block (s := S131072x96) S256x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x96x180.size a ≤ S3x96x180.size a
  hwx0_1 : ∀ i : grid0.Coords, EltTy.bits .f32 = 32 ∨ (Rect.block (s := S3x96x180) S3x96x180.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x180.size a ≤ S1x180.size a
  hwx0_2 : ∀ i : grid0.Coords, EltTy.bits .f32 = 32 ∨ (Rect.block (s := S1x180) S1x180.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x174x208.size a ≤ S3x174x208.size a
  hwx0_3 : ∀ i : grid0.Coords, EltTy.bits .f32 = 32 ∨ (Rect.block (s := S3x174x208) S3x174x208.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x208.size a ≤ S1x208.size a
  hwx0_4 : ∀ i : grid0.Coords, EltTy.bits .f32 = 32 ∨ (Rect.block (s := S1x208) S1x208.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x192x120.size a ≤ S6x192x120.size a
  hwx0_5 : ∀ i : grid0.Coords, EltTy.bits .f32 = 32 ∨ (Rect.block (s := S6x192x120) S6x192x120.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .f32 = 32 ∨ (Rect.block (s := S120x84) S120x84.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x128.size a ≤ S84x128.size a
  hwx0_9 : ∀ i : grid0.Coords, EltTy.bits .f32 = 32 ∨ (Rect.block (s := S84x128) S84x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S4096x128.size a
  hwx0_11 : ∀ i : grid0.Coords, EltTy.bits .f32 = 32 ∨ (Rect.block (s := S4096x128) S8x128.size (cc0_transform_11 i) (hinb0_11 i)).WholeWords (EltTy.packing .f32)

variable [Facts₀]

def dot_S240x96_S96x180_S240x180_1_0_0_1_n_n : DotDims S240x96 S96x180 S240x180 where
  lhsContracting := [1]
  rhsContracting := [0]
  lhsNonContracting := [0]
  rhsNonContracting := [1]
  lhsBatch := []
  rhsBatch := []
  wf := dot_S240x96_S96x180_S240x180_1_0_0_1_n_n_wf
def dot_S200x174_S174x208_S200x208_1_0_0_1_n_n : DotDims S200x174 S174x208 S200x208 where
  lhsContracting := [1]
  rhsContracting := [0]
  lhsNonContracting := [0]
  rhsNonContracting := [1]
  lhsBatch := []
  rhsBatch := []
  wf := dot_S200x174_S174x208_S200x208_1_0_0_1_n_n_wf
def dot_S8x192_S192x120_S8x120_1_0_0_1_n_n : DotDims S8x192 S192x120 S8x120 where
  lhsContracting := [1]
  rhsContracting := [0]
  lhsNonContracting := [0]
  rhsNonContracting := [1]
  lhsBatch := []
  rhsBatch := []
  wf := dot_S8x192_S192x120_S8x120_1_0_0_1_n_n_wf
def dot_S8x120_S120x84_S8x84_1_0_0_1_n_n : DotDims S8x120 S120x84 S8x84 where
  lhsContracting := [1]
  rhsContracting := [0]
  lhsNonContracting := [0]
  rhsNonContracting := [1]
  lhsBatch := []
  rhsBatch := []
  wf := dot_S8x120_S120x84_S8x84_1_0_0_1_n_n_wf
def dot_S8x84_S84x128_S8x128_1_0_0_1_n_n : DotDims S8x84 S84x128 S8x128 where
  lhsContracting := [1]
  rhsContracting := [0]
  lhsNonContracting := [0]
  rhsNonContracting := [1]
  lhsBatch := []
  rhsBatch := []
  wf := dot_S8x84_S84x128_S8x128_1_0_0_1_n_n_wf

abbrev win0_0 : Pipeline.Window sig grid0 :=
  Pipeline.Window.ofSpec (Memref.whole main_v4) S256x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x96x180.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x180.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x174x208.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x208.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x192x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S8x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.LibRunBoth.lean ====
/-
  Two facts about every weakly fair execution of one program from one state hold together.

  `θ_run defs p s Q` says: every weakly fair execution of `p` from the memory `s` is finite, never stuck, and ends in a
  final state satisfying `Q`. Termination and freedom from deadlock do not mention `Q`, and a final state reached
  satisfies each postcondition that every final state reached satisfies. So from the same program and the same state,
  `Q` and `Q'` may be concluded together (`θ_run_both`). This lets a value statement about a program be proved with
  only the NEW conjunct in its postcondition, and joined afterwards to a frame statement already in hand.
-/
import Idealize.ShloMosaic.Machine.Run

namespace Idealize.ShloMosaic

open Idealize.SL.Sem

variable {nD : Nat} {τ : Topo} {sig : RefSig} {Val : EltTy → Type} {Λ : Labels}

/-- Every weakly fair execution from `s₀` ends satisfying `Q`, and every one ends satisfying `Q'`: every one ends
    satisfying both. -/
theorem MeshRun.both {defs : Defs nD τ sig Val Λ} {Q Q' : MemSt nD τ sig Val → Prop} {s₀ : RunSt nD τ sig Val Λ}
    (h : MeshRun defs Q s₀) (h' : MeshRun defs Q' s₀) : MeshRun defs (fun m => Q m ∧ Q' m) s₀ :=
  ⟨fun t ht hf => ⟨h.post t ht hf, h'.post t ht hf⟩, h.progress, h.fair⟩

/-- The same for the observation of a loaded program. -/
theorem θ_run_both (defs : Defs nD τ sig Val Λ) (p : (c : Thread nD τ) → Prog (TpuEff nD τ sig Val Λ c.2) PUnit)
    (s : MemSt nD τ sig Val) (Q Q' : PUnit × MemSt nD τ sig Val → Prop)
    (h : θ_run defs p s Q) (h' : θ_run defs p s Q') : θ_run defs p s (fun r => Q r ∧ Q' r) :=
  MeshRun.both (Q := fun m' => Q (⟨⟩, m')) (Q' := fun m' => Q' (⟨⟩, m')) h h'

end Idealize.ShloMosaic
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibLeadUnit.lean ====
/-
  A shape_cast that drops a LEADING unit axis, read at coordinates: [1, B, C] recast as [B, C] at (b, c) is the array
  at (0, b, c).  (Row-major positions: (0 · B + b) · C + c = b · C + c.)  For any element type.
-/
import Idealize.ShloMosaic.Lib.ValueIdx
import Idealize.ShloMosaic.Lib.Pipeline.Value

noncomputable section

namespace Cert.LibLeadUnit

open Idealize.ShloMosaic Idealize.ShloMosaic.ValueIdx

variable {α : Type}

/-- [1, B, C] recast as [B, C], at (b, c): the operand at (0, b, c). -/
theorem cast_1bc_bc {B C : ℕ} (x : (⟨3, ![1, B, C]⟩ : Shape).Idx → α)
    (h : (⟨3, ![1, B, C]⟩ : Shape).ShapeCasts ⟨2, ![B, C]⟩) (b : Fin B) (c : Fin C) :
    shapeCast ⟨2, ![B, C]⟩ x h (ix2 b c) = x (ix3 0 b c) := by
  refine shapeCast_apply x h _ _ ?_
  rw [Shape.rowMajor_val_three, Shape.rowMajor_val_two]
  show (0 * B + b.val) * C + c.val = b.val * C + c.val
  rw [Nat.zero_mul, Nat.zero_add]

end Cert.LibLeadUnit

end
-- ==== Proof.LibUnitLoads.lean ====
/-
  A load through a unit-stride rectangle read at an index.

  The rectangle takes `size a` consecutive coordinates from `off a` on every axis, so the element the load puts at the
  local index `y` is the contents' element at `off + y`, axis by axis. Stated with the target index as a variable and
  its coordinates as a hypothesis, so that a caller names the index by its coordinates and discharges one equation
  per axis.
-/
import Idealize.ShloMosaic.Lib.Pipeline.Value

noncomputable section

namespace Cert.LibUnitLoads

open Idealize.ShloMosaic

variable {Val : EltTy → Type} {S : Shape} {e : EltTy}

/-- The load at `y` is the contents at the index whose every coordinate is the offset plus `y`'s. -/
theorem ld_unit_apply (X : S.Idx → Val e) (off size : Fin S.rank → ℕ) (inb : ∀ a, off a + size a ≤ S.size a)
    (y : (Rect.unit off size inb).shape.Idx) (k : S.Idx) (hk : ∀ a, (k a).val = off a + (y a).val) :
    View.ld X (Rect.unit off size inb) y = X k :=
  congrArg X (funext fun a => Fin.ext (by
    rw [hk a]
    show off a + 1 * (y a).val = off a + (y a).val
    rw [Nat.one_mul]))

end Cert.LibUnitLoads

end
-- ==== Proof.LibTileMaps.lean ====
/-
  Matrices as total functions of two natural numbers, and tiles of images.

  A matrix of extents `A × B` over the extended reals is read as the function on all pairs of naturals that is the
  matrix inside its extents and `0` outside. Because `max 0 0 = 0`, `0 + 0 = 0` and `0 · x = x · 0 = 0` on the
  extended reals, the pointwise maximum, the pointwise sum and the product of two such readings are again the reading
  of the maximum, the sum, the product — as equations between total functions, with no side condition. A slice and
  a row stretched down the rows need the result cut back to its own extents (`box`).

  A tile stacks `tb` images row-interleaved: row `h · tb + i` of the tile is row `h` of image `i`. Every operation a
  row-interleaved network applies — a shift by a multiple of `tb` rows, a shift of columns, a product against a matrix
  of weights on the right, a pointwise maximum or sum, a row of biases — commutes with picking image `i` out of the
  tile, for every tile size. So what a tile of `tb` images computes for image `i` is what a tile of one image computes.
-/
import Idealize.ShloMosaic.PureOps.Ideal.Laws
import Idealize.ShloMosaic.Lib.ValueIdx
import Idealize.ShloMosaic.Lib.Pipeline.Value
import proofs.«161973_g2000107156690142_pallasbulk_525_2_alg».proof.Proof.LibColumnBlocks
import proofs.«161973_g2000107156690142_pallasbulk_525_2_alg».proof.Proof.LibLeadUnit
import proofs.«161973_g2000107156690142_pallasbulk_525_2_alg».proof.Proof.LibUnitLoads

noncomputable section

namespace Cert.LibTileMaps

open Idealize.ShloMosaic Idealize.ShloMosaic.ValueIdx

/-- A matrix with every extent forgotten: a value at every pair of naturals. -/
abbrev M := ℕ → ℕ → EReal

/-- An `A × B` matrix read everywhere: itself inside its extents, `0` outside. -/
def toM {A B : ℕ} (v : (⟨2, ![A, B]⟩ : Shape).Idx → EReal) : M :=
  fun r c => if h : r < A ∧ c < B then v (ix2 ⟨r, h.1⟩ ⟨c, h.2⟩) else 0

/-- Layer `d` of a `D × K × B` array read everywhere as a matrix: `0` outside the array. -/
def slab {D K B : ℕ} (X : (⟨3, ![D, K, B]⟩ : Shape).Idx → EReal) (d : ℕ) : M :=
  fun k c => if h : d < D ∧ k < K ∧ c < B then X (ix3 ⟨d, h.1⟩ ⟨k, h.2.1⟩ ⟨c, h.2.2⟩) else 0

/-- Cut back to `A` rows and `B` columns: `0` outside. -/
def box (A B : ℕ) (f : M) : M := fun r c => if r < A ∧ c < B then f r c else 0
/-- Rows moved up by `o`. -/
def shr (o : ℕ) (f : M) : M := fun r c => f (o + r) c
/-- Columns moved left by `o`. -/
def shc (o : ℕ) (f : M) : M := fun r c => f r (o + c)
/-- Pointwise maximum. -/
def mx (f g : M) : M := fun r c => max (f r c) (g r c)
/-- Pointwise sum. -/
def ad (f g : M) : M := fun r c => f r c + g r c
/-- Product over a contracted axis of length `K`. -/
def mm (K : ℕ) (f g : M) : M := fun r c => ∑ k : Fin K, f r k.val * g k.val c
/-- Row `0` repeated on every row. -/
def row0 (f : M) : M := fun _ c => f 0 c
/-- Maximum with `0`. -/
def relu (f : M) : M := fun r c => max (f r c) 0

theorem toM_val {A B : ℕ} (v : (⟨2, ![A, B]⟩ : Shape).Idx → EReal) (a : Fin A) (b : Fin B) :
    toM v a.val b.val = v (ix2 a b) := by
  unfold toM
  rw [dif_pos ⟨a.isLt, b.isLt⟩]

theorem toM_of_lt {A B : ℕ} (v : (⟨2, ![A, B]⟩ : Shape).Idx → EReal) (r c : ℕ) (hr : r < A) (hc : c < B) :
    toM v r c = v (ix2 ⟨r, hr⟩ ⟨c, hc⟩) := by
  unfold toM
  rw [dif_pos ⟨hr, hc⟩]

theorem toM_of_not {A B : ℕ} (v : (⟨2, ![A, B]⟩ : Shape).Idx → EReal) (r c : ℕ) (h : ¬ (r < A ∧ c < B)) :
    toM v r c = 0 := by
  unfold toM
  rw [dif_neg h]

/-- A matrix's reading is already cut to its extents. -/
theorem box_toM {A B : ℕ} (v : (⟨2, ![A, B]⟩ : Shape).Idx → EReal) : box A B (toM v) = toM v := by
  funext r c
  unfold box
  by_cases h : r < A ∧ c < B
  · rw [if_pos h]
  · rw [if_neg h, toM_of_not v r c h]

theorem shr_zero (f : M) : shr 0 f = f := by funext r c; unfold shr; rw [Nat.zero_add]
theorem shc_zero (f : M) : shc 0 f = f := by funext r c; unfold shc; rw [Nat.zero_add]

/-! ## The vector operations on readings -/

/-- A slice at offsets `(o0, o1)` of extents `A' × B'`: the operand's reading shifted, cut to the slice's extents. -/
theorem toM_slice {A B A' B' : ℕ} (o0 o1 : ℕ) (v : (⟨2, ![A, B]⟩ : Shape).Idx → EReal)
    (h : (⟨2, ![A, B]⟩ : Shape).Slices ![o0, o1] ⟨2, ![A', B']⟩) :
    toM (extractStridedSlice ⟨2, ![A', B']⟩ ![o0, o1] v h) = box A' B' (shr o0 (shc o1 (toM v))) := by
  have h0 : o0 + A' ≤ A := by obtain ⟨_, hb⟩ := h; exact hb 0
  have h1 : o1 + B' ≤ B := by obtain ⟨_, hb⟩ := h; exact hb 1
  funext r c
  unfold box shr shc
  by_cases hrc : r < A' ∧ c < B'
  · rw [if_pos hrc, toM_of_lt _ r c hrc.1 hrc.2, toM_of_lt v (o0 + r) (o1 + c) (by omega) (by omega)]
    refine extractStridedSlice_apply ![o0, o1] v h _ _ fun d => ?_
    match d with
    | ⟨0, _⟩ => rfl
    | ⟨1, _⟩ => rfl
  · rw [if_neg hrc, toM_of_not _ r c hrc]

/-- A load through the unit-stride rectangle at `(o0, o1)` of extents `A' × B'`: the same shifted, cut reading. -/
theorem toM_ld_bf16 {A B A' B' : ℕ} (o0 o1 : ℕ) (X : Vec Ideal ⟨2, ![A, B]⟩ .bf16)
    (inb : ∀ a, (![o0, o1] : Fin 2 → ℕ) a + (![A', B'] : Fin 2 → ℕ) a ≤ (⟨2, ![A, B]⟩ : Shape).size a) :
    toM (A := A') (B := B') (View.ld X (Rect.unit (s := ⟨2, ![A, B]⟩) ![o0, o1] ![A', B'] inb))
      = box A' B' (shr o0 (shc o1 (toM X))) := by
  have h0 : o0 + A' ≤ A := inb 0
  have h1 : o1 + B' ≤ B := inb 1
  funext r c
  unfold box shr shc
  by_cases hrc : r < A' ∧ c < B'
  · rw [if_pos hrc, toM_of_lt _ r c hrc.1 hrc.2, toM_of_lt X (o0 + r) (o1 + c) (by omega) (by omega)]
    refine Cert.LibUnitLoads.ld_unit_apply X ![o0, o1] ![A', B'] inb _ _ fun d => ?_
    match d with
    | ⟨0, _⟩ => rfl
    | ⟨1, _⟩ => rfl
  · rw [if_neg hrc, toM_of_not _ r c hrc]

/-- Layer `d` loaded as a `1 × K × B` block and recast as `K × B`: the array's layer `d`. -/
theorem toM_layer_bf16 {D K B : ℕ} (d : ℕ) (X : Vec Ideal ⟨3, ![D, K, B]⟩ .bf16)
    (inb : ∀ a, (![d, 0, 0] : Fin 3 → ℕ) a + (![1, K, B] : Fin 3 → ℕ) a ≤ (⟨3, ![D, K, B]⟩ : Shape).size a)
    (hc : (⟨3, ![1, K, B]⟩ : Shape).ShapeCasts ⟨2, ![K, B]⟩) :
    toM (shapeCast ⟨2, ![K, B]⟩ (View.ld X (Rect.unit (s := ⟨3, ![D, K, B]⟩) ![d, 0, 0] ![1, K, B] inb)) hc)
      = slab X d := by
  have hd : d + 1 ≤ D := inb 0
  funext k c
  unfold slab
  by_cases hkc : k < K ∧ c < B
  · rw [toM_of_lt _ k c hkc.1 hkc.2, dif_pos ⟨by omega, hkc.1, hkc.2⟩,
      Cert.LibLeadUnit.cast_1bc_bc _ hc ⟨k, hkc.1⟩ ⟨c, hkc.2⟩]
    refine Cert.LibUnitLoads.ld_unit_apply X ![d, 0, 0] ![1, K, B] inb _ _ fun a => ?_
    match a with
    | ⟨0, _⟩ => rfl
    | ⟨1, _⟩ => show k = 0 + k; omega
    | ⟨2, _⟩ => show c = 0 + c; omega
  · rw [toM_of_not _ k c hkc, dif_neg (fun h => hkc ⟨h.2.1, h.2.2⟩)]

/-- A load through the unit-stride rectangle at `(o0, o1)` of extents `A' × B'`: the same shifted, cut reading. -/
theorem toM_ld_f32 {A B A' B' : ℕ} (o0 o1 : ℕ) (X : Vec Ideal ⟨2, ![A, B]⟩ .f32)
    (inb : ∀ a, (![o0, o1] : Fin 2 → ℕ) a + (![A', B'] : Fin 2 → ℕ) a ≤ (⟨2, ![A, B]⟩ : Shape).size a) :
    toM (A := A') (B := B') (View.ld X (Rect.unit (s := ⟨2, ![A, B]⟩) ![o0, o1] ![A', B'] inb))
      = box A' B' (shr o0 (shc o1 (toM X))) := by
  have h0 : o0 + A' ≤ A := inb 0
  have h1 : o1 + B' ≤ B := inb 1
  funext r c
  unfold box shr shc
  by_cases hrc : r < A' ∧ c < B'
  · rw [if_pos hrc, toM_of_lt _ r c hrc.1 hrc.2, toM_of_lt X (o0 + r) (o1 + c) (by omega) (by omega)]
    refine Cert.LibUnitLoads.ld_unit_apply X ![o0, o1] ![A', B'] inb _ _ fun d => ?_
    match d with
    | ⟨0, _⟩ => rfl
    | ⟨1, _⟩ => rfl
  · rw [if_neg hrc, toM_of_not _ r c hrc]

/-- Layer `d` loaded as a `1 × K × B` block and recast as `K × B`: the array's layer `d`. -/
theorem toM_layer_f32 {D K B : ℕ} (d : ℕ) (X : Vec Ideal ⟨3, ![D, K, B]⟩ .f32)
    (inb : ∀ a, (![d, 0, 0] : Fin 3 → ℕ) a + (![1, K, B] : Fin 3 → ℕ) a ≤ (⟨3, ![D, K, B]⟩ : Shape).size a)
    (hc : (⟨3, ![1, K, B]⟩ : Shape).ShapeCasts ⟨2, ![K, B]⟩) :
    toM (shapeCast ⟨2, ![K, B]⟩ (View.ld X (Rect.unit (s := ⟨3, ![D, K, B]⟩) ![d, 0, 0] ![1, K, B] inb)) hc)
      = slab X d := by
  have hd : d + 1 ≤ D := inb 0
  funext k c
  unfold slab
  by_cases hkc : k < K ∧ c < B
  · rw [toM_of_lt _ k c hkc.1 hkc.2, dif_pos ⟨by omega, hkc.1, hkc.2⟩,
      Cert.LibLeadUnit.cast_1bc_bc _ hc ⟨k, hkc.1⟩ ⟨c, hkc.2⟩]
    refine Cert.LibUnitLoads.ld_unit_apply X ![d, 0, 0] ![1, K, B] inb _ _ fun a => ?_
    match a with
    | ⟨0, _⟩ => rfl
    | ⟨1, _⟩ => show k = 0 + k; omega
    | ⟨2, _⟩ => show c = 0 + c; omega
  · rw [toM_of_not _ k c hkc, dif_neg (fun h => hkc ⟨h.2.1, h.2.2⟩)]

theorem toM_max {A B : ℕ} {φ : FTy} (u v : FVec Ideal ⟨2, ![A, B]⟩ φ) :
    toM (maximumf u v) = mx (toM u) (toM v) := by
  funext r c
  unfold mx
  by_cases h : r < A ∧ c < B
  · rw [toM_of_lt _ r c h.1 h.2, toM_of_lt u r c h.1 h.2, toM_of_lt v r c h.1 h.2]; rfl
  · rw [toM_of_not _ r c h, toM_of_not u r c h, toM_of_not v r c h, max_self]

theorem toM_add {A B : ℕ} {φ : FTy} (u v : FVec Ideal ⟨2, ![A, B]⟩ φ) :
    toM (addf u v) = ad (toM u) (toM v) := by
  funext r c
  unfold ad
  by_cases h : r < A ∧ c < B
  · rw [toM_of_lt _ r c h.1 h.2, toM_of_lt u r c h.1 h.2, toM_of_lt v r c h.1 h.2]; rfl
  · rw [toM_of_not _ r c h, toM_of_not u r c h, toM_of_not v r c h, add_zero]

/-- Maximum with the zero word stretched over the matrix. -/
theorem toM_relu {A B : ℕ} (v : FVec Ideal ⟨2, ![A, B]⟩ .f32) :
    toM (maximumf v (broadcast ⟨2, ![A, B]⟩ (Scalar.ofBits (F := Ideal) .f32 0x00000000#32))) = relu (toM v) := by
  funext r c
  unfold relu
  by_cases h : r < A ∧ c < B
  · rw [toM_of_lt _ r c h.1 h.2, toM_of_lt v r c h.1 h.2, maximumf_apply, broadcast_apply]
    show max _ (Ideal.ofBits .f32 0x00000000#32) = _
    rw [Ideal.ofBits_zero_f32]
  · rw [toM_of_not _ r c h, toM_of_not v r c h, max_self]

/-- A change of float format is the identity on the extended reals. -/
theorem toM_truncf {A B : ℕ} {φ ψ : FTy} (v : FVec Ideal ⟨2, ![A, B]⟩ φ) (h : ψ.bits < φ.bits) :
    toM (truncf ψ v h : FVec Ideal ⟨2, ![A, B]⟩ ψ) = toM v := rfl

/-- A `1 × B` row stretched over `A` rows. -/
theorem toM_bias {A B : ℕ} (v : (⟨2, ![1, B]⟩ : Shape).Idx → EReal)
    (h : (⟨2, ![1, B]⟩ : Shape).Broadcasts ⟨2, ![A, B]⟩) :
    toM (broadcastTo ⟨2, ![A, B]⟩ v h) = box A B (row0 (toM v)) := by
  funext r c
  unfold box row0
  by_cases hrc : r < A ∧ c < B
  · rw [if_pos hrc, toM_of_lt _ r c hrc.1 hrc.2, toM_of_lt v 0 c Nat.one_pos hrc.2]
    refine broadcastTo_apply v h _ _ fun a => ?_
    match a with
    | ⟨0, _⟩ => rfl
    | ⟨1, _⟩ =>
      show c = if B = 1 then 0 else c
      by_cases hB : B = 1
      · rw [if_pos hB]; omega
      · rw [if_neg hB]
  · rw [if_neg hrc, toM_of_not _ r c hrc]

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂)

include hr hs hlc hrc hl0 hr1 in
/-- The accumulating product into a zero accumulator: the product of the readings. -/
theorem toM_matmul (prec : Option ContractPrecision) :
    toM (matmul d prec lhs rhs (constant ⟨2, ![A, B]⟩ .f32 0x00000000#32)) = mm K (toM lhs) (toM rhs) := by
  funext r c
  unfold mm
  by_cases h : r < A ∧ c < B
  · rw [toM_of_lt _ r c h.1 h.2,
      Cert.LibColumnBlocks.matmul_zero_apply d hr hs hlc hrc hl0 hr1 lhs rhs ⟨r, h.1⟩ ⟨c, h.2⟩ prec]
    refine Finset.sum_congr rfl fun k _ => ?_
    rw [toM_of_lt lhs r k.val h.1 k.isLt, toM_of_lt rhs k.val c k.isLt h.2]
  · rw [toM_of_not _ r c h]
    refine (Finset.sum_eq_zero fun k _ => ?_).symm
    by_cases hrA : r < A
    · have hcB : ¬ c < B := fun hc => h ⟨hrA, hc⟩
      rw [toM_of_not rhs k.val c (fun hh => hcB hh.2), mul_zero]
    · rw [toM_of_not lhs r k.val (fun hh => hrA hh.1), zero_mul]

end Dot

/-! ## Picking one image out of a tile -/

/-- Image `i` of a tile of `tb` row-interleaved images: row `h` of the image is row `h · tb + i` of the tile. -/
def pick (tb i : ℕ) (f : M) : M := fun h c => f (h * tb + i) c

theorem pick_box (tb i n B : ℕ) (hi : i < tb) (f : M) : pick tb i (box (n * tb) B f) = box (n * 1) B (pick tb i f) := by
  funext h c
  unfold pick box
  have e : (h * tb + i < n * tb) ↔ (h < n * 1) := by
    rw [Nat.mul_one]
    constructor
    · intro hlt
      by_contra hge
      have : n * tb ≤ h * tb := Nat.mul_le_mul_right tb (Nat.le_of_not_lt hge)
      omega
    · intro hlt
      have : (h + 1) * tb ≤ n * tb := Nat.mul_le_mul_right tb hlt
      rw [Nat.add_mul, Nat.one_mul] at this
      omega
  by_cases hc : h < n * 1 ∧ c < B
  · rw [if_pos hc, if_pos ⟨e.2 hc.1, hc.2⟩]
  · rw [if_neg hc, if_neg (fun hh => hc ⟨e.1 hh.1, hh.2⟩)]

theorem pick_shr (tb i d : ℕ) (f : M) : pick tb i (shr (d * tb) f) = shr (d * 1) (pick tb i f) := by
  funext h c
  show f (d * tb + (h * tb + i)) c = f ((d * 1 + h) * tb + i) c
  rw [Nat.mul_one, Nat.add_mul, Nat.add_assoc]

theorem pick_shc (tb i o : ℕ) (f : M) : pick tb i (shc o f) = shc o (pick tb i f) := rfl
theorem pick_mx (tb i : ℕ) (f g : M) : pick tb i (mx f g) = mx (pick tb i f) (pick tb i g) := rfl
theorem pick_ad (tb i : ℕ) (f g : M) : pick tb i (ad f g) = ad (pick tb i f) (pick tb i g) := rfl
theorem pick_relu (tb i : ℕ) (f : M) : pick tb i (relu f) = relu (pick tb i f) := rfl
theorem pick_mm (tb i K : ℕ) (f g : M) : pick tb i (mm K f g) = mm K (pick tb i f) g := rfl
theorem pick_row0 (tb i : ℕ) (f : M) : pick tb i (row0 f) = row0 f := rfl
theorem pick_one_zero (f : M) : pick 1 0 f = f := by
  funext h c; unfold pick; rw [Nat.mul_one, Nat.add_zero]

end Cert.LibTileMaps

end
-- ==== Proof.Net.lean ====
/-
  The network both programs compute, as one function of the tile size.

  A tile holds `tb` images of 32 rows and 96 lanes (lane `3·w + ch`), row-interleaved: row `h·tb + i` is row `h` of
  image `i`. The network is: a 3-row banded convolution (three products against 96 × 180 bands, rows `h`, `h+1`, `h+2`),
  bias and maximum with 0; a 2 × 2 maximum pool (rows `h`, `h+1`; lanes `c`, `c+6`); a second banded convolution on rows
  `h`, `h+2`, `h+4` against 174 × 208 bands, bias and maximum with 0; a second pool (rows `h`, `h+2`; lanes `c`, `c+16`);
  a dense layer summing six products of rows `0, 4, …, 20` against 192 × 120 matrices, bias, maximum with 0; a dense
  layer 120 → 84 with bias and maximum with 0; a dense layer 84 → 128 with bias. Every row shift is a multiple of
  `tb`, so image `i` of the tile's result is the one-image network on image `i` of the tile (`pick_net`).
-/
import proofs.«161973_g2000107156690142_pallasbulk_525_2_alg».proof.Proof.LibTileMaps

noncomputable section

namespace Cert.Net

open Idealize.ShloMosaic Idealize.ShloMosaic.ValueIdx Cert.LibTileMaps

/-- Three banded products on rows `h`, `h + d`, `h + 2d` (in units of `tb`) over `n·tb` rows, `K` lanes in, `B` lanes
    out, plus a bias row, maximum with 0. -/
def conv (tb n d K B : ℕ) (p Wa Wb Wc b : M) : M :=
  relu (ad (ad (ad (mm K (box (n * tb) K p) Wa) (mm K (box (n * tb) K (shr (d * tb) p)) Wb))
    (mm K (box (n * tb) K (shr ((2 * d) * tb) p)) Wc)) (box (n * tb) B (row0 b)))

/-- The 2 × 2 maximum pool: rows `h` and `h + d` (in units of `tb`) over `n·tb` rows, then lanes `c` and `c + o`, `B`
    lanes in, `B'` lanes out. -/
def pool (tb n d B B' o : ℕ) (y : M) : M :=
  mx (box (n * tb) B' (mx (box (n * tb) B y) (box (n * tb) B (shr (d * tb) y))))
     (box (n * tb) B' (shc o (mx (box (n * tb) B y) (box (n * tb) B (shr (d * tb) y)))))

/-- The first dense layer: rows `0, 4, 8, 12, 16, 20` (in units of `tb`) of the pooled map against six matrices. -/
def fc1 (tb : ℕ) (q F0 F1 F2 F3 F4 F5 b : M) : M :=
  relu (ad (ad (ad (ad (ad (ad (mm 192 (box (1 * tb) 192 q) F0) (mm 192 (box (1 * tb) 192 (shr (4 * tb) q)) F1))
    (mm 192 (box (1 * tb) 192 (shr (8 * tb) q)) F2)) (mm 192 (box (1 * tb) 192 (shr (12 * tb) q)) F3))
    (mm 192 (box (1 * tb) 192 (shr (16 * tb) q)) F4)) (mm 192 (box (1 * tb) 192 (shr (20 * tb) q)) F5))
    (box (1 * tb) 120 (row0 b)))

/-- A dense layer with bias and maximum with 0. -/
def fc2 (tb : ℕ) (z W b : M) : M := relu (ad (mm 120 z W) (box (1 * tb) 84 (row0 b)))
/-- The last dense layer, bias only. -/
def fc3 (tb : ℕ) (z W b : M) : M := ad (mm 84 z W) (box (1 * tb) 128 (row0 b))

/-- The whole network on a tile of `tb` images. -/
def net (tb : ℕ) (X Wa Wb Wc b1 Va Vb Vc b2 F0 F1 F2 F3 F4 F5 bf1 Wf2 bf2 Wf3 bf3 : M) : M :=
  fc3 tb (fc2 tb (fc1 tb (pool tb 23 2 208 192 16 (conv tb 25 2 174 208 (pool tb 29 1 180 174 6
    (conv tb 30 1 96 180 X Wa Wb Wc b1)) Va Vb Vc b2)) F0 F1 F2 F3 F4 F5 bf1) Wf2 bf2) Wf3 bf3

/-- Image `i` of the network's result on a tile of `tb` images is the one-image network on image `i` of the tile. -/
theorem pick_net (tb i : ℕ) (hi : i < tb) (X Wa Wb Wc b1 Va Vb Vc b2 F0 F1 F2 F3 F4 F5 bf1 Wf2 bf2 Wf3 bf3 : M) :
    pick tb i (net tb X Wa Wb Wc b1 Va Vb Vc b2 F0 F1 F2 F3 F4 F5 bf1 Wf2 bf2 Wf3 bf3)
      = net 1 (pick tb i X) Wa Wb Wc b1 Va Vb Vc b2 F0 F1 F2 F3 F4 F5 bf1 Wf2 bf2 Wf3 bf3 := by
  unfold net fc3 fc2 fc1 pool conv
  simp only [pick_ad, pick_mm, pick_relu, pick_mx, pick_box _ _ _ _ hi, pick_shr, pick_shc, pick_row0]

/-- One image of the batch as a 32 × 96 matrix read everywhere: row `h`, lane `3·w + ch` is the image's entry at
    channel `ch`, row `h`, column `w`; `0` outside. -/
def img (x : (⟨4, ![4096, 3, 32, 32]⟩ : Shape).Idx → EReal) (b : ℕ) : M :=
  fun h l => if hh : b < 4096 ∧ h < 32 ∧ l < 96 then
    x (ix4 ⟨b, hh.1⟩ ⟨l % 3, Nat.mod_lt _ (by omega)⟩ ⟨h, hh.2.1⟩ ⟨l / 3, by omega⟩) else 0

/-- The batch re-laid as rows of tiles. The array of `NB` images `[NB, 3, 32, 32]` is moved to channels-last, its last
    two axes joined into 96 lanes (lane `3·w + ch`), its images grouped into `G` tiles of `tb`, the image and row axes
    of a tile swapped, and the first three axes joined: row `(g·32 + h)·tb + i`, lane `l` of the result is image
    `g·tb + i` at channel `l mod 3`, row `h`, column `l / 3`. -/
theorem rows_apply {NB G tb N : ℕ} {α : Type} (x : (⟨4, ![NB, 3, 32, 32]⟩ : Shape).Idx → α)
    (h1 : (⟨4, ![NB, 3, 32, 32]⟩ : Shape).Transposes [0, 2, 3, 1] ⟨4, ![NB, 32, 32, 3]⟩)
    (h2 : (⟨4, ![NB, 32, 32, 3]⟩ : Shape).ShapeCasts ⟨3, ![NB, 32, 96]⟩)
    (h3 : (⟨3, ![NB, 32, 96]⟩ : Shape).ShapeCasts ⟨4, ![G, tb, 32, 96]⟩)
    (h4 : (⟨4, ![G, tb, 32, 96]⟩ : Shape).Transposes [0, 2, 1, 3] ⟨4, ![G, 32, tb, 96]⟩)
    (h5 : (⟨4, ![G, 32, tb, 96]⟩ : Shape).ShapeCasts ⟨2, ![N, 96]⟩)
    (g : Fin G) (h : Fin 32) (i : Fin tb) (l : Fin 96) (R : Fin N) (hR : R.val = (g.val * 32 + h.val) * tb + i.val)
    (b : Fin NB) (hb : b.val = g.val * tb + i.val) (ch : Fin 3) (hch : ch.val = l.val % 3)
    (w : Fin 32) (hw : w.val = l.val / 3) :
    shapeCast ⟨2, ![N, 96]⟩ (transpose ⟨4, ![G, 32, tb, 96]⟩ [0, 2, 1, 3] (shapeCast ⟨4, ![G, tb, 32, 96]⟩
      (shapeCast ⟨3, ![NB, 32, 96]⟩ (transpose ⟨4, ![NB, 32, 32, 3]⟩ [0, 2, 3, 1] x h1) h2) h3) h4) h5 (ix2 R l)
      = x (ix4 b ch h w) := by
  rw [shapeCast_apply _ h5 (ix2 R l) (ix4 g h i l) (by
    rw [Shape.rowMajor_val_four, Shape.rowMajor_val_two]
    show ((g.val * 32 + h.val) * tb + i.val) * 96 + l.val = R.val * 96 + l.val
    rw [hR])]
  rw [transpose_apply [0, 2, 1, 3] _ h4 (ix4 g h i l) (ix4 g i h l) (fun a => by
    match a with
    | ⟨0, _⟩ => rfl
    | ⟨1, _⟩ => rfl
    | ⟨2, _⟩ => rfl
    | ⟨3, _⟩ => rfl)]
  rw [shapeCast_apply _ h3 (ix4 g i h l) (ix3 b h l) (by
    rw [Shape.rowMajor_val_three, Shape.rowMajor_val_four]
    show (b.val * 32 + h.val) * 96 + l.val = ((g.val * tb + i.val) * 32 + h.val) * 96 + l.val
    rw [hb])]
  rw [shapeCast_apply _ h2 (ix3 b h l) (ix4 b h w ch) (by
    rw [Shape.rowMajor_val_four, Shape.rowMajor_val_three]
    show ((b.val * 32 + h.val) * 32 + w.val) * 3 + ch.val = (b.val * 32 + h.val) * 96 + l.val
    rw [hw, hch]
    omega)]
  exact transpose_apply [0, 2, 3, 1] x h1 (ix4 b h w ch) (ix4 b ch h w) (fun a => by
    match a with
    | ⟨0, _⟩ => rfl
    | ⟨1, _⟩ => rfl
    | ⟨2, _⟩ => rfl
    | ⟨3, _⟩ => rfl)

/-- The network's 128 output lanes for image `b` of the batch, from the argument arrays. -/
def lenet (x : (⟨4, ![4096, 3, 32, 32]⟩ : Shape).Idx → EReal) (w1 : (⟨3, ![3, 96, 180]⟩ : Shape).Idx → EReal)
    (b1 : (⟨2, ![1, 180]⟩ : Shape).Idx → EReal) (w2 : (⟨3, ![3, 174, 208]⟩ : Shape).Idx → EReal)
    (b2 : (⟨2, ![1, 208]⟩ : Shape).Idx → EReal) (f1 : (⟨3, ![6, 192, 120]⟩ : Shape).Idx → EReal)
    (bf1 : (⟨2, ![1, 120]⟩ : Shape).Idx → EReal) (f2 : (⟨2, ![120, 84]⟩ : Shape).Idx → EReal)
    (bf2 : (⟨2, ![1, 84]⟩ : Shape).Idx → EReal) (f3 : (⟨2, ![84, 128]⟩ : Shape).Idx → EReal)
    (bf3 : (⟨2, ![1, 128]⟩ : Shape).Idx → EReal) (b : ℕ) : ℕ → EReal :=
  net 1 (img x b) (slab w1 0) (slab w1 1) (slab w1 2) (toM b1) (slab w2 0) (slab w2 1) (slab w2 2) (toM b2)
    (slab f1 0) (slab f1 1) (slab f1 2) (slab f1 3) (slab f1 4) (slab f1 5) (toM bf1) (toM f2) (toM bf2) (toM f3) (toM bf3) 0

/-- The result both programs return: for every image, the first ten output lanes. -/
def result (x : (⟨4, ![4096, 3, 32, 32]⟩ : Shape).Idx → EReal) (w1 : (⟨3, ![3, 96, 180]⟩ : Shape).Idx → EReal)
    (b1 : (⟨2, ![1, 180]⟩ : Shape).Idx → EReal) (w2 : (⟨3, ![3, 174, 208]⟩ : Shape).Idx → EReal)
    (b2 : (⟨2, ![1, 208]⟩ : Shape).Idx → EReal) (f1 : (⟨3, ![6, 192, 120]⟩ : Shape).Idx → EReal)
    (bf1 : (⟨2, ![1, 120]⟩ : Shape).Idx → EReal) (f2 : (⟨2, ![120, 84]⟩ : Shape).Idx → EReal)
    (bf2 : (⟨2, ![1, 84]⟩ : Shape).Idx → EReal) (f3 : (⟨2, ![84, 128]⟩ : Shape).Idx → EReal)
    (bf3 : (⟨2, ![1, 128]⟩ : Shape).Idx → EReal) : (⟨2, ![4096, 10]⟩ : Shape).Idx → EReal :=
  fun j => lenet x w1 b1 w2 b2 f1 bf1 f2 bf2 f3 bf3 (j 0).val (j 1).val

end Cert.Net

end
-- ==== Proof.KBody.lean ====
/-
  The kernel's body on one grid point is the network on a tile of 128 images.

  The body loads its staging buffers, and every later value is a slice, a product into a zero accumulator, a sum, a
  maximum, a stretched bias row or a change of float format of earlier values. Reading every matrix as a total
  function (0 outside its extents) turns each of these into the corresponding operation on total functions, so the
  block the body stores is the network of tile size 128 applied to the readings of its input blocks.
-/
import proofs.«161973_g2000107156690142_pallasbulk_525_2_alg».proof.Proof.Gen.KernelIdeal.Frame
import proofs.«161973_g2000107156690142_pallasbulk_525_2_alg».proof.Proof.LibTileMaps
import proofs.«161973_g2000107156690142_pallasbulk_525_2_alg».proof.Proof.Net

set_option maxRecDepth 16384

noncomputable section

namespace Cert.KernelIdeal.Body

open Idealize.ShloMosaic Idealize.ShloMosaic.ValueIdx Idealize.ShloMosaic.TcCoe
open Cert.KernelIdeal Cert.KernelIdeal.Gen Cert.LibTileMaps Cert.Net

theorem hz2 : (![0, 0] : Fin 2 → Nat) = fun _ => 0 := funext fun a => by fin_cases a <;> rfl

/-! The five products' dimension records: each contracts the left operand's columns against the right operand's rows. -/

theorem mm_conv1 (l : FVec Ideal S3840x96 .bf16) (r : FVec Ideal S96x180 .bf16) :
    toM (matmul dot_S3840x96_S96x180_S3840x180_1_0_0_1_n_n none l r (constant S3840x180 .f32 0x00000000#32)) = mm 96 (toM l) (toM r) :=
  toM_matmul dot_S3840x96_S96x180_S3840x180_1_0_0_1_n_n rfl rfl rfl rfl (fun _ _ => rfl) (fun _ _ => rfl) l r none

theorem mm_conv2 (l : FVec Ideal S3200x174 .bf16) (r : FVec Ideal S174x208 .bf16) :
    toM (matmul dot_S3200x174_S174x208_S3200x208_1_0_0_1_n_n none l r (constant S3200x208 .f32 0x00000000#32)) = mm 174 (toM l) (toM r) :=
  toM_matmul dot_S3200x174_S174x208_S3200x208_1_0_0_1_n_n rfl rfl rfl rfl (fun _ _ => rfl) (fun _ _ => rfl) l r none

theorem mm_fc1 (l : FVec Ideal S128x192 .bf16) (r : FVec Ideal S192x120 .bf16) :
    toM (matmul dot_S128x192_S192x120_S128x120_1_0_0_1_n_n none l r (constant S128x120 .f32 0x00000000#32)) = mm 192 (toM l) (toM r) :=
  toM_matmul dot_S128x192_S192x120_S128x120_1_0_0_1_n_n rfl rfl rfl rfl (fun _ _ => rfl) (fun _ _ => rfl) l r none

theorem mm_fc2 (l : FVec Ideal S128x120 .bf16) (r : FVec Ideal S120x84 .bf16) :
    toM (matmul dot_S128x120_S120x84_S128x84_1_0_0_1_n_n none l r (constant S128x84 .f32 0x00000000#32)) = mm 120 (toM l) (toM r) :=
  toM_matmul dot_S128x120_S120x84_S128x84_1_0_0_1_n_n rfl rfl rfl rfl (fun _ _ => rfl) (fun _ _ => rfl) l r none

theorem mm_fc3 (l : FVec Ideal S128x84 .bf16) (r : FVec Ideal S84x128 .bf16) :
    toM (matmul dot_S128x84_S84x128_S128x128_1_0_0_1_n_n none l r (constant S128x128 .f32 0x00000000#32)) = mm 84 (toM l) (toM r) :=
  toM_matmul dot_S128x84_S84x128_S128x128_1_0_0_1_n_n rfl rfl rfl rfl (fun _ _ => rfl) (fun _ _ => rfl) l r none

/-- What the body stores, read everywhere: the network on the readings of the input blocks — the tile of images, the
    three bands of each convolution, the six matrices of the first dense layer, the two later dense matrices, and the
    five bias rows. -/
theorem toM_out (x0 : Vec Ideal S4096x96 .bf16) (x1 : Vec Ideal S3x96x180 .bf16) (x2 : Vec Ideal S1x180 .f32)
    (x3 : Vec Ideal S3x174x208 .bf16) (x4 : Vec Ideal S1x208 .f32) (x5 : Vec Ideal S6x192x120 .bf16)
    (x6 : Vec Ideal S1x120 .f32) (x7 : Vec Ideal S120x84 .bf16) (x8 : Vec Ideal S1x84 .f32)
    (x9 : Vec Ideal S84x128 .bf16) (x10 : Vec Ideal S1x128 .f32) :
    toM (out0_11 (F := Ideal) x0 x1 x2 x3 x4 x5 x6 x7 x8 x9 x10)
      = net 128 (toM x0) (slab x1 0) (slab x1 1) (slab x1 2) (toM x2) (slab x3 0) (slab x3 1) (slab x3 2) (toM x4)
          (slab x5 0) (slab x5 1) (slab x5 2) (slab x5 3) (slab x5 4) (slab x5 5) (toM x6) (toM x7) (toM x8) (toM x9)
          (toM x10) := by
  unfold out0_11
  rw [View.canon_unit_zero hz2]
  unfold k0_pay9 k0_pay8 k0_pay7 k0_pay6 k0_pay5 k0_pay4 k0_pay3 k0_pay2 k0_pay1
  simp only [shapeCast_self, View.ld_unit_zero (S := S4096x96) hz2, View.ld_unit_zero (S := S1x180) hz2, View.ld_unit_zero (S := S1x208) hz2, View.ld_unit_zero (S := S1x120) hz2, View.ld_unit_zero (S := S120x84) hz2, View.ld_unit_zero (S := S1x84) hz2, View.ld_unit_zero (S := S84x128) hz2, View.ld_unit_zero (S := S1x128) hz2,
    toM_layer_bf16, toM_ld_bf16, toM_max, ↓toM_relu, toM_add, toM_truncf, toM_slice, toM_bias,
    mm_conv1, mm_conv2, mm_fc1, mm_fc2, mm_fc3, shr_zero, shc_zero]
  rfl

end Cert.KernelIdeal.Body

end
-- ==== Proof.KValue.lean ====
/-
  The value the kernel leaves: for every image of the batch, the network's output lanes.

  Grid point `t` works on images `128·t … 128·t + 127`: its input block is rows `4096·t …` of the batch re-laid as rows
  of tiles, which is the tile of those 128 images, and every other input block is a whole argument array. So the block
  the point writes back holds, at row `r`, the network's 128 lanes for image `128·t + r`. The blocks tile the result array
  by rows, and the host keeps its first ten lanes.
-/
import proofs.«161973_g2000107156690142_pallasbulk_525_2_alg».proof.Proof.Gen.KernelIdeal.Frame
import proofs.«161973_g2000107156690142_pallasbulk_525_2_alg».proof.Proof.LibTileMaps
import proofs.«161973_g2000107156690142_pallasbulk_525_2_alg».proof.Proof.Net
import proofs.«161973_g2000107156690142_pallasbulk_525_2_alg».proof.Proof.KBody
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.ValueIdx Idealize.ShloMosaic.TcCoe Idealize.SL.Sem
open Idealize.ShloMosaic.Pipeline (Dat)

namespace Cert.KernelIdeal.Hand

open Cert.KernelIdeal Cert.KernelIdeal.Gen Cert.LibTileMaps Cert.Net

variable (m : (ℓ : Loc nD τ sig) → Buf (Elt Ideal) ℓ) (ρ : Dev nD → PrngReg)

/-! ## The index maps over the grid -/

theorem idx_0 : ∀ t : Fin cfg0.N, win0_0.index t = ![t.val, 0] :=
  (by decide +kernel : ∀ t : Fin grid0.N, win0_0.index t = ![t.val, 0])
theorem idx_11 : ∀ t : Fin cfg0.N, win0_11.index t = ![t.val, 0] :=
  (by decide +kernel : ∀ t : Fin grid0.N, win0_11.index t = ![t.val, 0])
theorem idx_1 : ∀ t : Fin cfg0.N, win0_1.index t = ![0, 0, 0] :=
  (by decide +kernel : ∀ t : Fin grid0.N, win0_1.index t = ![0, 0, 0])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0, 0] :=
  (by decide +kernel : ∀ t : Fin grid0.N, win0_3.index t = ![0, 0, 0])
theorem idx_4 : ∀ t : Fin cfg0.N, win0_4.index t = ![0, 0] :=
  (by decide +kernel : ∀ t : Fin grid0.N, win0_4.index t = ![0, 0])
theorem idx_5 : ∀ t : Fin cfg0.N, win0_5.index t = ![0, 0, 0] :=
  (by decide +kernel : ∀ t : Fin grid0.N, win0_5.index t = ![0, 0, 0])
theorem idx_6 : ∀ t : Fin cfg0.N, win0_6.index t = ![0, 0] :=
  (by decide +kernel : ∀ t : Fin grid0.N, win0_6.index t = ![0, 0])
theorem idx_7 : ∀ t : Fin cfg0.N, win0_7.index t = ![0, 0] :=
  (by decide +kernel : ∀ t : Fin grid0.N, win0_7.index t = ![0, 0])
theorem idx_8 : ∀ t : Fin cfg0.N, win0_8.index t = ![0, 0] :=
  (by decide +kernel : ∀ t : Fin grid0.N, win0_8.index t = ![0, 0])
theorem idx_9 : ∀ t : Fin cfg0.N, win0_9.index t = ![0, 0] :=
  (by decide +kernel : ∀ t : Fin grid0.N, win0_9.index t = ![0, 0])
theorem idx_10 : ∀ t : Fin cfg0.N, win0_10.index t = ![0, 0] :=
  (by decide +kernel : ∀ t : Fin grid0.N, win0_10.index t = ![0, 0])

/-! ## The arrays the region finds -/

/-- Argument 0 as launched. -/
abbrev a0 (c : Dev nD) : S4096x3x32x32.Idx → EReal := m ((c : Thread nD τ).loc main_arg0)
/-- Argument 1 as launched. -/
abbrev a1 (c : Dev nD) : S3x96x180.Idx → EReal := m ((c : Thread nD τ).loc main_arg1)
/-- Argument 2 as launched. -/
abbrev a2 (c : Dev nD) : S1x180.Idx → EReal := m ((c : Thread nD τ).loc main_arg2)
/-- Argument 3 as launched. -/
abbrev a3 (c : Dev nD) : S3x174x208.Idx → EReal := m ((c : Thread nD τ).loc main_arg3)
/-- Argument 4 as launched. -/
abbrev a4 (c : Dev nD) : S1x208.Idx → EReal := m ((c : Thread nD τ).loc main_arg4)
/-- Argument 5 as launched. -/
abbrev a5 (c : Dev nD) : S6x192x120.Idx → EReal := m ((c : Thread nD τ).loc main_arg5)
/-- Argument 6 as launched. -/
abbrev a6 (c : Dev nD) : S1x120.Idx → EReal := m ((c : Thread nD τ).loc main_arg6)
/-- Argument 7 as launched. -/
abbrev a7 (c : Dev nD) : S120x84.Idx → EReal := m ((c : Thread nD τ).loc main_arg7)
/-- Argument 8 as launched. -/
abbrev a8 (c : Dev nD) : S1x84.Idx → EReal := m ((c : Thread nD τ).loc main_arg8)
/-- Argument 9 as launched. -/
abbrev a9 (c : Dev nD) : S84x128.Idx → EReal := m ((c : Thread nD τ).loc main_arg9)
/-- Argument 10 as launched. -/
abbrev a10 (c : Dev nD) : S1x128.Idx → EReal := m ((c : Thread nD τ).loc main_arg10)

/-- The tiles' array: the batch re-laid as rows of tiles by the host. -/
theorem V_x (c : Dev nD) : (V m c main_v5 : S131072x96.Idx → EReal) = shapeCast S131072x96 (transpose S32x32x128x96 [0, 2, 1, 3] (shapeCast S32x128x32x96 (shapeCast S4096x32x96 (transpose S4096x32x32x3 [0, 2, 3, 1] (a0 m c) transposes_S4096x3x32x32_S4096x32x32x3_0_2_3_1) shapeCasts_S4096x32x32x3_S4096x32x96) shapeCasts_S4096x32x96_S32x128x32x96) transposes_S32x128x32x96_S32x32x128x96_0_2_1_3) shapeCasts_S32x32x128x96_S131072x96 := by
  show StableHlo.after hostOps0 (fun b => m (c, b)) (Proc.devRef .tc main_v5) = _
  after_results
  rfl

theorem V_w1 (c : Dev nD) : (V m c main_v6 : S3x96x180.Idx → EReal) = a1 m c := by
  show StableHlo.after hostOps0 (fun b => m (c, b)) (Proc.devRef .tc main_v6) = _
  after_results
  rfl
theorem V_w2 (c : Dev nD) : (V m c main_arg2 : S1x180.Idx → EReal) = a2 m c := V_main_arg2 m c
theorem V_w3 (c : Dev nD) : (V m c main_v7 : S3x174x208.Idx → EReal) = a3 m c := by
  show StableHlo.after hostOps0 (fun b => m (c, b)) (Proc.devRef .tc main_v7) = _
  after_results
  rfl
theorem V_w4 (c : Dev nD) : (V m c main_arg4 : S1x208.Idx → EReal) = a4 m c := V_main_arg4 m c
theorem V_w5 (c : Dev nD) : (V m c main_v8 : S6x192x120.Idx → EReal) = a5 m c := by
  show StableHlo.after hostOps0 (fun b => m (c, b)) (Proc.devRef .tc main_v8) = _
  after_results
  rfl
theorem V_w6 (c : Dev nD) : (V m c main_arg6 : S1x120.Idx → EReal) = a6 m c := V_main_arg6 m c
theorem V_w7 (c : Dev nD) : (V m c main_v9 : S120x84.Idx → EReal) = a7 m c := by
  show StableHlo.after hostOps0 (fun b => m (c, b)) (Proc.devRef .tc main_v9) = _
  after_results
  rfl
theorem V_w8 (c : Dev nD) : (V m c main_arg8 : S1x84.Idx → EReal) = a8 m c := V_main_arg8 m c
theorem V_w9 (c : Dev nD) : (V m c main_v10 : S84x128.Idx → EReal) = a9 m c := by
  show StableHlo.after hostOps0 (fun b => m (c, b)) (Proc.devRef .tc main_v10) = _
  after_results
  rfl
theorem V_w10 (c : Dev nD) : (V m c main_arg10 : S1x128.Idx → EReal) = a10 m c := V_main_arg10 m c

/-! ## The blocks -/

/-- The tile window's block at point `t` is rows `4096·t …` of the tiles' array. -/
theorem iblk0_apply (c : Dev nD) (t : Fin cfg0.N) (y : S4096x96.Idx) (k : S131072x96.Idx)
    (hk0 : (k 0).val = t.val * 4096 + (y 0).val) (hk1 : (k 1).val = (y 1).val) :
    (iblk m c 0 t : S4096x96.Idx → EReal) y = (V m c main_v5 : S131072x96.Idx → EReal) k := by
  unfold iblk
  rw [View.read_apply]
  show V m c main_v5 _ = V m c main_v5 k
  congr 1
  funext a
  apply Fin.ext
  match a with
  | ⟨0, _⟩ =>
    show win0_0.index t 0 * 4096 + 1 * (y 0).val = (k 0).val
    rw [congrFun (idx_0 t) 0, hk0]
    show t.val * 4096 + 1 * (y 0).val = _
    omega
  | ⟨1, _⟩ =>
    show win0_0.index t 1 * 96 + 1 * (y 1).val = (k 1).val
    rw [congrFun (idx_0 t) 1, hk1]
    show 0 * 96 + 1 * (y 1).val = _
    omega

/-- Image `i` of point `t`'s tile is image `128·t + i` of the batch. -/
theorem tile_image (c : Dev nD) (t : Fin cfg0.N) (i : ℕ) (hi : i < 128) :
    pick 128 i (toM (iblk m c 0 t : S4096x96.Idx → EReal)) = img (a0 m c) (t.val * 128 + i) := by
  have ht : t.val < 32 := by have h := t.isLt; have hN : cfg0.N = 32 := N_0; omega
  funext h l
  unfold pick img
  by_cases hhl : h < 32 ∧ l < 96
  · have hr : h * 128 + i < 4096 := by omega
    rw [toM_of_lt _ (h * 128 + i) l hr hhl.2, dif_pos ⟨by omega, hhl.1, hhl.2⟩,
      iblk0_apply m c t (ix2 ⟨h * 128 + i, hr⟩ ⟨l, hhl.2⟩)
        (ix2 ⟨t.val * 4096 + (h * 128 + i), by omega⟩ ⟨l, hhl.2⟩) rfl rfl, V_x]
    exact rows_apply _ _ _ _ _ _ ⟨t.val, ht⟩ ⟨h, hhl.1⟩ ⟨i, hi⟩ ⟨l, hhl.2⟩ _
      (by show t.val * 4096 + (h * 128 + i) = (t.val * 32 + h) * 128 + i; omega) _ rfl _ rfl _ rfl
  · rw [toM_of_not _ _ _ (fun hh => hhl ⟨by omega, hh.2⟩), dif_neg (fun hh => hhl ⟨hh.2.1, hh.2.2⟩)]

/-- Window 1's block at every point is its whole array: argument 1. -/
theorem blk_1 (c : Dev nD) (t : Fin cfg0.N) : (iblk m c 1 t : S3x96x180.Idx → EReal) = a1 m c := by
  rw [← V_w1 m c]
  funext y
  unfold iblk
  rw [View.read_apply]
  show V m c main_v6 _ = V m c main_v6 y
  congr 1
  funext a
  apply Fin.ext
  match a with
  | ⟨0, _⟩ =>
    show win0_1.index t 0 * 3 + 1 * (y 0).val = (y 0).val
    rw [congrFun (idx_1 t) 0]
    show 0 * 3 + 1 * (y 0).val = (y 0).val
    omega
  | ⟨1, _⟩ =>
    show win0_1.index t 1 * 96 + 1 * (y 1).val = (y 1).val
    rw [congrFun (idx_1 t) 1]
    show 0 * 96 + 1 * (y 1).val = (y 1).val
    omega
  | ⟨2, _⟩ =>
    show win0_1.index t 2 * 180 + 1 * (y 2).val = (y 2).val
    rw [congrFun (idx_1 t) 2]
    show 0 * 180 + 1 * (y 2).val = (y 2).val
    omega

/-- Window 2's block at every point is its whole array: argument 2. -/
theorem blk_2 (c : Dev nD) (t : Fin cfg0.N) : (iblk m c 2 t : S1x180.Idx → EReal) = a2 m c := by
  rw [← V_w2 m c]
  funext y
  unfold iblk
  rw [View.read_apply]
  show V m c main_arg2 _ = V m c main_arg2 y
  congr 1
  funext a
  apply Fin.ext
  match a with
  | ⟨0, _⟩ =>
    show win0_2.index t 0 * 1 + 1 * (y 0).val = (y 0).val
    rw [congrFun (idx_2 t) 0]
    show 0 * 1 + 1 * (y 0).val = (y 0).val
    omega
  | ⟨1, _⟩ =>
    show win0_2.index t 1 * 180 + 1 * (y 1).val = (y 1).val
    rw [congrFun (idx_2 t) 1]
    show 0 * 180 + 1 * (y 1).val = (y 1).val
    omega

/-- Window 3's block at every point is its whole array: argument 3. -/
theorem blk_3 (c : Dev nD) (t : Fin cfg0.N) : (iblk m c 3 t : S3x174x208.Idx → EReal) = a3 m c := by
  rw [← V_w3 m c]
  funext y
  unfold iblk
  rw [View.read_apply]
  show V m c main_v7 _ = V m c main_v7 y
  congr 1
  funext a
  apply Fin.ext
  match a with
  | ⟨0, _⟩ =>
    show win0_3.index t 0 * 3 + 1 * (y 0).val = (y 0).val
    rw [congrFun (idx_3 t) 0]
    show 0 * 3 + 1 * (y 0).val = (y 0).val
    omega
  | ⟨1, _⟩ =>
    show win0_3.index t 1 * 174 + 1 * (y 1).val = (y 1).val
    rw [congrFun (idx_3 t) 1]
    show 0 * 174 + 1 * (y 1).val = (y 1).val
    omega
  | ⟨2, _⟩ =>
    show win0_3.index t 2 * 208 + 1 * (y 2).val = (y 2).val
    rw [congrFun (idx_3 t) 2]
    show 0 * 208 + 1 * (y 2).val = (y 2).val
    omega

/-- Window 4's block at every point is its whole array: argument 4. -/
theorem blk_4 (c : Dev nD) (t : Fin cfg0.N) : (iblk m c 4 t : S1x208.Idx → EReal) = a4 m c := by
  rw [← V_w4 m c]
  funext y
  unfold iblk
  rw [View.read_apply]
  show V m c main_arg4 _ = V m c main_arg4 y
  congr 1
  funext a
  apply Fin.ext
  match a with
  | ⟨0, _⟩ =>
    show win0_4.index t 0 * 1 + 1 * (y 0).val = (y 0).val
    rw [congrFun (idx_4 t) 0]
    show 0 * 1 + 1 * (y 0).val = (y 0).val
    omega
  | ⟨1, _⟩ =>
    show win0_4.index t 1 * 208 + 1 * (y 1).val = (y 1).val
    rw [congrFun (idx_4 t) 1]
    show 0 * 208 + 1 * (y 1).val = (y 1).val
    omega

/-- Window 5's block at every point is its whole array: argument 5. -/
theorem blk_5 (c : Dev nD) (t : Fin cfg0.N) : (iblk m c 5 t : S6x192x120.Idx → EReal) = a5 m c := by
  rw [← V_w5 m c]
  funext y
  unfold iblk
  rw [View.read_apply]
  show V m c main_v8 _ = V m c main_v8 y
  congr 1
  funext a
  apply Fin.ext
  match a with
  | ⟨0, _⟩ =>
    show win0_5.index t 0 * 6 + 1 * (y 0).val = (y 0).val
    rw [congrFun (idx_5 t) 0]
    show 0 * 6 + 1 * (y 0).val = (y 0).val
    omega
  | ⟨1, _⟩ =>
    show win0_5.index t 1 * 192 + 1 * (y 1).val = (y 1).val
    rw [congrFun (idx_5 t) 1]
    show 0 * 192 + 1 * (y 1).val = (y 1).val
    omega
  | ⟨2, _⟩ =>
    show win0_5.index t 2 * 120 + 1 * (y 2).val = (y 2).val
    rw [congrFun (idx_5 t) 2]
    show 0 * 120 + 1 * (y 2).val = (y 2).val
    omega

/-- Window 6's block at every point is its whole array: argument 6. -/
theorem blk_6 (c : Dev nD) (t : Fin cfg0.N) : (iblk m c 6 t : S1x120.Idx → EReal) = a6 m c := by
  rw [← V_w6 m c]
  funext y
  unfold iblk
  rw [View.read_apply]
  show V m c main_arg6 _ = V m c main_arg6 y
  congr 1
  funext a
  apply Fin.ext
  match a with
  | ⟨0, _⟩ =>
    show win0_6.index t 0 * 1 + 1 * (y 0).val = (y 0).val
    rw [congrFun (idx_6 t) 0]
    show 0 * 1 + 1 * (y 0).val = (y 0).val
    omega
  | ⟨1, _⟩ =>
    show win0_6.index t 1 * 120 + 1 * (y 1).val = (y 1).val
    rw [congrFun (idx_6 t) 1]
    show 0 * 120 + 1 * (y 1).val = (y 1).val
    omega

/-- Window 7's block at every point is its whole array: argument 7. -/
theorem blk_7 (c : Dev nD) (t : Fin cfg0.N) : (iblk m c 7 t : S120x84.Idx → EReal) = a7 m c := by
  rw [← V_w7 m c]
  funext y
  unfold iblk
  rw [View.read_apply]
  show V m c main_v9 _ = V m c main_v9 y
  congr 1
  funext a
  apply Fin.ext
  match a with
  | ⟨0, _⟩ =>
    show win0_7.index t 0 * 120 + 1 * (y 0).val = (y 0).val
    rw [congrFun (idx_7 t) 0]
    show 0 * 120 + 1 * (y 0).val = (y 0).val
    omega
  | ⟨1, _⟩ =>
    show win0_7.index t 1 * 84 + 1 * (y 1).val = (y 1).val
    rw [congrFun (idx_7 t) 1]
    show 0 * 84 + 1 * (y 1).val = (y 1).val
    omega

/-- Window 8's block at every point is its whole array: argument 8. -/
theorem blk_8 (c : Dev nD) (t : Fin cfg0.N) : (iblk m c 8 t : S1x84.Idx → EReal) = a8 m c := by
  rw [← V_w8 m c]
  funext y
  unfold iblk
  rw [View.read_apply]
  show V m c main_arg8 _ = V m c main_arg8 y
  congr 1
  funext a
  apply Fin.ext
  match a with
  | ⟨0, _⟩ =>
    show win0_8.index t 0 * 1 + 1 * (y 0).val = (y 0).val
    rw [congrFun (idx_8 t) 0]
    show 0 * 1 + 1 * (y 0).val = (y 0).val
    omega
  | ⟨1, _⟩ =>
    show win0_8.index t 1 * 84 + 1 * (y 1).val = (y 1).val
    rw [congrFun (idx_8 t) 1]
    show 0 * 84 + 1 * (y 1).val = (y 1).val
    omega

/-- Window 9's block at every point is its whole array: argument 9. -/
theorem blk_9 (c : Dev nD) (t : Fin cfg0.N) : (iblk m c 9 t : S84x128.Idx → EReal) = a9 m c := by
  rw [← V_w9 m c]
  funext y
  unfold iblk
  rw [View.read_apply]
  show V m c main_v10 _ = V m c main_v10 y
  congr 1
  funext a
  apply Fin.ext
  match a with
  | ⟨0, _⟩ =>
    show win0_9.index t 0 * 84 + 1 * (y 0).val = (y 0).val
    rw [congrFun (idx_9 t) 0]
    show 0 * 84 + 1 * (y 0).val = (y 0).val
    omega
  | ⟨1, _⟩ =>
    show win0_9.index t 1 * 128 + 1 * (y 1).val = (y 1).val
    rw [congrFun (idx_9 t) 1]
    show 0 * 128 + 1 * (y 1).val = (y 1).val
    omega

/-- Window 10's block at every point is its whole array: argument 10. -/
theorem blk_10 (c : Dev nD) (t : Fin cfg0.N) : (iblk m c 10 t : S1x128.Idx → EReal) = a10 m c := by
  rw [← V_w10 m c]
  funext y
  unfold iblk
  rw [View.read_apply]
  show V m c main_arg10 _ = V m c main_arg10 y
  congr 1
  funext a
  apply Fin.ext
  match a with
  | ⟨0, _⟩ =>
    show win0_10.index t 0 * 1 + 1 * (y 0).val = (y 0).val
    rw [congrFun (idx_10 t) 0]
    show 0 * 1 + 1 * (y 0).val = (y 0).val
    omega
  | ⟨1, _⟩ =>
    show win0_10.index t 1 * 128 + 1 * (y 1).val = (y 1).val
    rw [congrFun (idx_10 t) 1]
    show 0 * 128 + 1 * (y 1).val = (y 1).val
    omega

/-! ## What a point writes back -/

/-- The result array the kernel leaves: row `b` holds the network's 128 lanes for image `b`. -/
def lanes (c : Dev nD) : S4096x128.Idx → EReal :=
  fun k => lenet (a0 m c) (a1 m c) (a2 m c) (a3 m c) (a4 m c) (a5 m c) (a6 m c) (a7 m c) (a8 m c) (a9 m c) (a10 m c) (k 0).val (k 1).val

theorem lanes_apply (c : Dev nD) (k : S4096x128.Idx) :
    lanes m c k = lenet (a0 m c) (a1 m c) (a2 m c) (a3 m c) (a4 m c) (a5 m c) (a6 m c) (a7 m c) (a8 m c) (a9 m c) (a10 m c) (k 0).val (k 1).val := rfl

/-- Row `r`, lane `j` of what point `t` stores: lane `j` of the network on image `128·t + r`. -/
theorem out_apply (c : Dev nD) (t : Fin cfg0.N) (r : Fin 128) (j : Fin 128) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : S128x128.Idx → EReal) (ix2 r j)
      = lenet (a0 m c) (a1 m c) (a2 m c) (a3 m c) (a4 m c) (a5 m c) (a6 m c) (a7 m c) (a8 m c) (a9 m c) (a10 m c) (t.val * 128 + r.val) j.val := by
  refine (toM_val (A := 128) (B := 128) (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) r j).symm.trans ?_
  rw [Cert.KernelIdeal.Body.toM_out, blk_1 m c t, blk_2 m c t, blk_3 m c t, blk_4 m c t, blk_5 m c t, blk_6 m c t, blk_7 m c t, blk_8 m c t, blk_9 m c t, blk_10 m c t]
  have e2 : ∀ f : M, f r.val j.val = pick 128 r.val f 0 j.val := fun f => by
    unfold pick; rw [Nat.zero_mul, Nat.zero_add]
  refine (e2 _).trans ?_
  rw [pick_net 128 r.val r.isLt, tile_image m c t r.val r.isLt]
  rfl

/-- WHAT POINT `t` WRITES BACK is block `t` of `lanes`. -/
theorem flushed_eq (c : Dev nD) (t : Fin cfg0.N) :
    (dats m 0 c).flushed 11 t = ((cfg0.win 11).blk t).view.read (Elt Ideal) (lanes m c) := by
  show (cfg0.win 11).cut (grid0.coords t) ((dats m 0 c).after 11 t) = _
  rw [after0_11]
  funext (y : S128x128.Idx)
  rw [View.read_apply]
  obtain ⟨r, j, rfl⟩ : ∃ (r : Fin 128) (j : Fin 128), y = ix2 r j := ⟨y 0, y 1, eq_ix2 y⟩
  show (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : S128x128.Idx → EReal) (ix2 r j)
    = lanes m c (((cfg0.win 11).blk t).view.emb (ix2 r j))
  have e0 : ((((cfg0.win 11).blk t).view.emb (ix2 r j)) 0).val = t.val * 128 + r.val := by
    show win0_11.index t 0 * 128 + 1 * r.val = _
    rw [congrFun (idx_11 t) 0]
    show t.val * 128 + 1 * r.val = _
    omega
  have e1 : ((((cfg0.win 11).blk t).view.emb (ix2 r j)) 1).val = j.val := by
    show win0_11.index t 1 * 128 + 1 * j.val = _
    rw [congrFun (idx_11 t) 1]
    show 0 * 128 + 1 * j.val = _
    omega
  rw [lanes_apply, e0, e1]
  exact out_apply m c t r j

/-- An index of the result array is in point `t`'s block iff each coordinate is in the block's range on its axis. -/
theorem mem_blk (t : Fin cfg0.N) (i : S4096x128.Idx) :
    i ∈ ((cfg0.win 11).blk t).view.set ↔ ∀ a : Fin 2, win0_11.index t a * S128x128.size a ≤ (i a).val ∧ (i a).val < win0_11.index t a * S128x128.size a + S128x128.size a := by
  show i ∈ ((View.whole main_v11).slice (win0_11.rect t)).set ↔ _
  rw [View.set_slice_whole, Rect.mem_set_unit]
  exact Iff.rfl

/-- The result array after the region: every row is some point's, so the array is `lanes`. -/
theorem final (c : Dev nD) : (dats m 0 c).arrAt 11 cfg0.N = lanes m c :=
  (dats m 0 c).arrAt_eq_of_cover 11 (lanes m c) (fun t _ => flushed_eq m c t) fun i => by
    have hi0 : (i 0).val < 4096 := (i 0).isLt
    have hi1 : (i 1).val < 128 := (i 1).isLt
    have hN : cfg0.N = 32 := N_0
    refine ⟨⟨(i 0).val / 128, by rw [hN]; omega⟩, flush0_11 _, ?_⟩
    rw [mem_blk]
    intro a
    match a with
    | ⟨0, _⟩ =>
      show win0_11.index ⟨(i 0).val / 128, _⟩ 0 * 128 ≤ (i 0).val ∧ (i 0).val < win0_11.index ⟨(i 0).val / 128, _⟩ 0 * 128 + 128
      rw [congrFun (idx_11 _) 0]
      show (i 0).val / 128 * 128 ≤ (i 0).val ∧ (i 0).val < (i 0).val / 128 * 128 + 128
      omega
    | ⟨1, _⟩ =>
      show win0_11.index ⟨(i 0).val / 128, _⟩ 1 * 128 ≤ (i 1).val ∧ (i 1).val < win0_11.index ⟨(i 0).val / 128, _⟩ 1 * 128 + 128
      rw [congrFun (idx_11 _) 1]
      show 0 * 128 ≤ (i 1).val ∧ (i 1).val < 0 * 128 + 128
      omega

end Cert.KernelIdeal.Hand

end
-- ==== Proof.KRun.lean ====
/-
  The kernel's run: after the region the host keeps the first ten lanes of every row of the result array, which holds the
  network's 128 lanes for every image; so the program's result is `Cert.Net.result` of the argument arrays.
-/
import proofs.«161973_g2000107156690142_pallasbulk_525_2_alg».proof.Proof.KValue
import Idealize.ShloMosaic.Lib.StableHlo.Run
import Idealize.ShloMosaic.Lib.Tactic

set_option maxRecDepth 16384

noncomputable section

open Idealize.ShloMosaic Idealize.ShloMosaic.ValueIdx Idealize.ShloMosaic.TcCoe Idealize.SL.Sem
open Idealize.ShloMosaic.Pipeline (Dat)

namespace Cert.KernelIdeal.Hand

open Cert.KernelIdeal Cert.KernelIdeal.Gen Cert.LibTileMaps Cert.Net

variable (m : (ℓ : Loc nD τ sig) → Buf (Elt Ideal) ℓ) (ρ : Dev nD → PrngReg)

/-! ## The host's last line and the run -/

/-- The first ten lanes of `lanes` are the result. -/
theorem lanes_cols (c : Dev nD) (j : S4096x10.Idx) (h : (j 1).val < 128) :
    lanes m c (ix2 (j 0) ⟨(j 1).val, h⟩) = result (a0 m c) (a1 m c) (a2 m c) (a3 m c) (a4 m c) (a5 m c) (a6 m c) (a7 m c) (a8 m c) (a9 m c) (a10 m c) j := rfl

/-- The result array as the host's last line finds it. -/
theorem arr_out (c : Dev nD) :
    Pipeline.withArrays (cfgs 0).spec c (V0 m c) (fun w => (dats m 0 c).arrAt w (cfgs 0).N) (Proc.tc.devRef main_v11)
      = (dats m 0 c).arrAt 11 cfg0.N :=
  Pipeline.withArrays_arr spec0 launch0.win.arr_inj c _ _ 11

/-- The first ten columns of any 4096 × 128 matrix, at `(b, l)`: the matrix at `(b, l)`. -/
theorem slice10 (f : S4096x128.Idx → EReal) (j : S4096x10.Idx) (h : (j 1).val < 128) :
    extractStridedSlice S4096x10 ![0, 0] f slices_S4096x128_S4096x10_0_0 j = f (ix2 (j 0) ⟨(j 1).val, h⟩) :=
  extractStridedSlice_apply ![0, 0] f slices_S4096x128_S4096x10_0_0 j (ix2 (j 0) ⟨(j 1).val, h⟩) fun a => by
    match a with
    | ⟨0, _⟩ => show (j 0).val = 0 + (j 0).val; omega
    | ⟨1, _⟩ => show (j 1).val = 0 + (j 1).val; omega

/-- The program's result: the first ten lanes of every image's output. -/
theorem tail_eq (c : Dev nD) :
    Pipeline.afterTail₀ cfgs (dats m) 0 (V0 m) [hostOps1] c main_v12
      = result (a0 m c) (a1 m c) (a2 m c) (a3 m c) (a4 m c) (a5 m c) (a6 m c) (a7 m c) (a8 m c) (a9 m c) (a10 m c) := by
  unfold Pipeline.afterTail₀
  show StableHlo.after hostOps1 _ (Proc.devRef .tc main_v12) = _
  after_results
  rw [arr_out m c, final m c]
  funext j
  have h : (j 1).val < 128 := by have h' : (j 1).val < 10 := (j 1).isLt; omega
  exact (slice10 (lanes m c) j h).trans (lanes_cols m c j h)

/-- Every weakly fair execution of the kernel terminates with its result at `result` of the argument arrays. -/
theorem run_value : θ_run defs (onTc (τ := τ) (main (F := Ideal))) ⟨m, fun _ => 0, ρ⟩ (fun r => ∀ c : Dev nD,
      r.2.mem ((c.tc : Thread nD τ).loc main_v12) = result (a0 m c) (a1 m c) (a2 m c) (a3 m c) (a4 m c) (a5 m c) (a6 m c) (a7 m c) (a8 m c) (a9 m c) (a10 m c)) :=
  (θ_run defs _ _).mono (fun _ h c =>
      ((h c).2 main_v12 (Pipeline.mem_restRefs_of main_v12 (by decide) (by decide))).trans (tail_eq m c))
    (run_main m ρ)

end Cert.KernelIdeal.Hand

end
-- ==== Proof.RBody.lean ====
/-
  The reference's body on one grid point is the network on a tile of 8 images.

  The body loads its staging buffers, and every later value is a slice, a product into a zero accumulator, a sum, a
  maximum, a stretched bias row or a change of float format of earlier values. Reading every matrix as a total
  function (0 outside its extents) turns each of these into the corresponding operation on total functions, so the
  block the body stores is the network of tile size 8 applied to the readings of its input blocks.
-/
import proofs.«161973_g2000107156690142_pallasbulk_525_2_alg».proof.Proof.Gen.ReferenceIdeal.Frame
import proofs.«161973_g2000107156690142_pallasbulk_525_2_alg».proof.Proof.LibTileMaps
import proofs.«161973_g2000107156690142_pallasbulk_525_2_alg».proof.Proof.Net

set_option maxRecDepth 16384

noncomputable section

namespace Cert.ReferenceIdeal.Body

open Idealize.ShloMosaic Idealize.ShloMosaic.ValueIdx Idealize.ShloMosaic.TcCoe
open Cert.ReferenceIdeal Cert.ReferenceIdeal.Gen Cert.LibTileMaps Cert.Net

theorem hz2 : (![0, 0] : Fin 2 → Nat) = fun _ => 0 := funext fun a => by fin_cases a <;> rfl

/-! The five products' dimension records: each contracts the left operand's columns against the right operand's rows. -/

theorem mm_conv1 (l : FVec Ideal S240x96 .f32) (r : FVec Ideal S96x180 .f32) :
    toM (matmul dot_S240x96_S96x180_S240x180_1_0_0_1_n_n none l r (constant S240x180 .f32 0x00000000#32)) = mm 96 (toM l) (toM r) :=
  toM_matmul dot_S240x96_S96x180_S240x180_1_0_0_1_n_n rfl rfl rfl rfl (fun _ _ => rfl) (fun _ _ => rfl) l r none

theorem mm_conv2 (l : FVec Ideal S200x174 .f32) (r : FVec Ideal S174x208 .f32) :
    toM (matmul dot_S200x174_S174x208_S200x208_1_0_0_1_n_n none l r (constant S200x208 .f32 0x00000000#32)) = mm 174 (toM l) (toM r) :=
  toM_matmul dot_S200x174_S174x208_S200x208_1_0_0_1_n_n rfl rfl rfl rfl (fun _ _ => rfl) (fun _ _ => rfl) l r none

theorem mm_fc1 (l : FVec Ideal S8x192 .f32) (r : FVec Ideal S192x120 .f32) :
    toM (matmul dot_S8x192_S192x120_S8x120_1_0_0_1_n_n none l r (constant S8x120 .f32 0x00000000#32)) = mm 192 (toM l) (toM r) :=
  toM_matmul dot_S8x192_S192x120_S8x120_1_0_0_1_n_n rfl rfl rfl rfl (fun _ _ => rfl) (fun _ _ => rfl) l r none

theorem mm_fc2 (l : FVec Ideal S8x120 .f32) (r : FVec Ideal S120x84 .f32) :
    toM (matmul dot_S8x120_S120x84_S8x84_1_0_0_1_n_n none l r (constant S8x84 .f32 0x00000000#32)) = mm 120 (toM l) (toM r) :=
  toM_matmul dot_S8x120_S120x84_S8x84_1_0_0_1_n_n rfl rfl rfl rfl (fun _ _ => rfl) (fun _ _ => rfl) l r none

theorem mm_fc3 (l : FVec Ideal S8x84 .f32) (r : FVec Ideal S84x128 .f32) :
    toM (matmul dot_S8x84_S84x128_S8x128_1_0_0_1_n_n none l r (constant S8x128 .f32 0x00000000#32)) = mm 84 (toM l) (toM r) :=
  toM_matmul dot_S8x84_S84x128_S8x128_1_0_0_1_n_n rfl rfl rfl rfl (fun _ _ => rfl) (fun _ _ => rfl) l r none

/-- What the body stores, read everywhere: the network on the readings of the input blocks — the tile of images, the
    three bands of each convolution, the six matrices of the first dense layer, the two later dense matrices, and the
    five bias rows. -/
theorem toM_out (x0 : Vec Ideal S256x96 .f32) (x1 : Vec Ideal S3x96x180 .f32) (x2 : Vec Ideal S1x180 .f32)
    (x3 : Vec Ideal S3x174x208 .f32) (x4 : Vec Ideal S1x208 .f32) (x5 : Vec Ideal S6x192x120 .f32)
    (x6 : Vec Ideal S1x120 .f32) (x7 : Vec Ideal S120x84 .f32) (x8 : Vec Ideal S1x84 .f32)
    (x9 : Vec Ideal S84x128 .f32) (x10 : Vec Ideal S1x128 .f32) :
    toM (out0_11 (F := Ideal) x0 x1 x2 x3 x4 x5 x6 x7 x8 x9 x10)
      = net 8 (toM x0) (slab x1 0) (slab x1 1) (slab x1 2) (toM x2) (slab x3 0) (slab x3 1) (slab x3 2) (toM x4)
          (slab x5 0) (slab x5 1) (slab x5 2) (slab x5 3) (slab x5 4) (slab x5 5) (toM x6) (toM x7) (toM x8) (toM x9)
          (toM x10) := by
  unfold out0_11
  rw [View.canon_unit_zero hz2]
  unfold k0_pay7 k0_pay6 k0_pay5 k0_pay4 k0_pay3 k0_pay2 k0_pay1
  simp only [shapeCast_self, View.ld_unit_zero (S := S1x180) hz2, View.ld_unit_zero (S := S1x208) hz2, View.ld_unit_zero (S := S1x120) hz2, View.ld_unit_zero (S := S120x84) hz2, View.ld_unit_zero (S := S1x84) hz2, View.ld_unit_zero (S := S84x128) hz2, View.ld_unit_zero (S := S1x128) hz2, View.ld_unit_zero (S := S8x128) hz2,
    toM_layer_f32, toM_ld_f32, toM_max, ↓toM_relu, toM_add, toM_truncf, toM_slice, toM_bias,
    mm_conv1, mm_conv2, mm_fc1, mm_fc2, mm_fc3, shr_zero, shc_zero]
  rfl

end Cert.ReferenceIdeal.Body

end
-- ==== Proof.RValue.lean ====
/-
  The value the reference leaves: for every image of the batch, the network's output lanes.

  Grid point `t` works on images `8·t … 8·t + 7`: its input block is rows `256·t …` of the batch re-laid as rows
  of tiles, which is the tile of those 8 images, and every other input block is a whole argument array. So the block
  the point writes back holds, at row `r`, the network's 128 lanes for image `8·t + r`. The blocks tile the result array
  by rows, and the host keeps its first ten lanes.
-/
import proofs.«161973_g2000107156690142_pallasbulk_525_2_alg».proof.Proof.Gen.ReferenceIdeal.Frame
import proofs.«161973_g2000107156690142_pallasbulk_525_2_alg».proof.Proof.LibTileMaps
import proofs.«161973_g2000107156690142_pallasbulk_525_2_alg».proof.Proof.Net
import proofs.«161973_g2000107156690142_pallasbulk_525_2_alg».proof.Proof.RBody
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.ValueIdx Idealize.ShloMosaic.TcCoe Idealize.SL.Sem
open Idealize.ShloMosaic.Pipeline (Dat)

namespace Cert.ReferenceIdeal.Hand

open Cert.ReferenceIdeal Cert.ReferenceIdeal.Gen Cert.LibTileMaps Cert.Net

variable (m : (ℓ : Loc nD τ sig) → Buf (Elt Ideal) ℓ) (ρ : Dev nD → PrngReg)

/-! ## The index maps over the grid -/

theorem idx_0 : ∀ t : Fin cfg0.N, win0_0.index t = ![t.val, 0] :=
  (by decide +kernel : ∀ t : Fin grid0.N, win0_0.index t = ![t.val, 0])
theorem idx_11 : ∀ t : Fin cfg0.N, win0_11.index t = ![t.val, 0] :=
  (by decide +kernel : ∀ t : Fin grid0.N, win0_11.index t = ![t.val, 0])
theorem idx_1 : ∀ t : Fin cfg0.N, win0_1.index t = ![0, 0, 0] :=
  (by decide +kernel : ∀ t : Fin grid0.N, win0_1.index t = ![0, 0, 0])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0, 0] :=
  (by decide +kernel : ∀ t : Fin grid0.N, win0_3.index t = ![0, 0, 0])
theorem idx_4 : ∀ t : Fin cfg0.N, win0_4.index t = ![0, 0] :=
  (by decide +kernel : ∀ t : Fin grid0.N, win0_4.index t = ![0, 0])
theorem idx_5 : ∀ t : Fin cfg0.N, win0_5.index t = ![0, 0, 0] :=
  (by decide +kernel : ∀ t : Fin grid0.N, win0_5.index t = ![0, 0, 0])
theorem idx_6 : ∀ t : Fin cfg0.N, win0_6.index t = ![0, 0] :=
  (by decide +kernel : ∀ t : Fin grid0.N, win0_6.index t = ![0, 0])
theorem idx_7 : ∀ t : Fin cfg0.N, win0_7.index t = ![0, 0] :=
  (by decide +kernel : ∀ t : Fin grid0.N, win0_7.index t = ![0, 0])
theorem idx_8 : ∀ t : Fin cfg0.N, win0_8.index t = ![0, 0] :=
  (by decide +kernel : ∀ t : Fin grid0.N, win0_8.index t = ![0, 0])
theorem idx_9 : ∀ t : Fin cfg0.N, win0_9.index t = ![0, 0] :=
  (by decide +kernel : ∀ t : Fin grid0.N, win0_9.index t = ![0, 0])
theorem idx_10 : ∀ t : Fin cfg0.N, win0_10.index t = ![0, 0] :=
  (by decide +kernel : ∀ t : Fin grid0.N, win0_10.index t = ![0, 0])

/-! ## The arrays the region finds -/

/-- Argument 0 as launched. -/
abbrev a0 (c : Dev nD) : S4096x3x32x32.Idx → EReal := m ((c : Thread nD τ).loc main_arg0)
/-- Argument 1 as launched. -/
abbrev a1 (c : Dev nD) : S3x96x180.Idx → EReal := m ((c : Thread nD τ).loc main_arg1)
/-- Argument 2 as launched. -/
abbrev a2 (c : Dev nD) : S1x180.Idx → EReal := m ((c : Thread nD τ).loc main_arg2)
/-- Argument 3 as launched. -/
abbrev a3 (c : Dev nD) : S3x174x208.Idx → EReal := m ((c : Thread nD τ).loc main_arg3)
/-- Argument 4 as launched. -/
abbrev a4 (c : Dev nD) : S1x208.Idx → EReal := m ((c : Thread nD τ).loc main_arg4)
/-- Argument 5 as launched. -/
abbrev a5 (c : Dev nD) : S6x192x120.Idx → EReal := m ((c : Thread nD τ).loc main_arg5)
/-- Argument 6 as launched. -/
abbrev a6 (c : Dev nD) : S1x120.Idx → EReal := m ((c : Thread nD τ).loc main_arg6)
/-- Argument 7 as launched. -/
abbrev a7 (c : Dev nD) : S120x84.Idx → EReal := m ((c : Thread nD τ).loc main_arg7)
/-- Argument 8 as launched. -/
abbrev a8 (c : Dev nD) : S1x84.Idx → EReal := m ((c : Thread nD τ).loc main_arg8)
/-- Argument 9 as launched. -/
abbrev a9 (c : Dev nD) : S84x128.Idx → EReal := m ((c : Thread nD τ).loc main_arg9)
/-- Argument 10 as launched. -/
abbrev a10 (c : Dev nD) : S1x128.Idx → EReal := m ((c : Thread nD τ).loc main_arg10)

/-- The tiles' array: the batch re-laid as rows of tiles by the host. -/
theorem V_x (c : Dev nD) : (V m c main_v4 : S131072x96.Idx → EReal) = shapeCast S131072x96 (transpose S512x32x8x96 [0, 2, 1, 3] (shapeCast S512x8x32x96 (shapeCast S4096x32x96 (transpose S4096x32x32x3 [0, 2, 3, 1] (a0 m c) transposes_S4096x3x32x32_S4096x32x32x3_0_2_3_1) shapeCasts_S4096x32x32x3_S4096x32x96) shapeCasts_S4096x32x96_S512x8x32x96) transposes_S512x8x32x96_S512x32x8x96_0_2_1_3) shapeCasts_S512x32x8x96_S131072x96 := by
  show StableHlo.after hostOps0 (fun b => m (c, b)) (Proc.devRef .tc main_v4) = _
  after_results
  rfl

theorem V_w1 (c : Dev nD) : (V m c main_arg1 : S3x96x180.Idx → EReal) = a1 m c := V_main_arg1 m c
theorem V_w2 (c : Dev nD) : (V m c main_arg2 : S1x180.Idx → EReal) = a2 m c := V_main_arg2 m c
theorem V_w3 (c : Dev nD) : (V m c main_arg3 : S3x174x208.Idx → EReal) = a3 m c := V_main_arg3 m c
theorem V_w4 (c : Dev nD) : (V m c main_arg4 : S1x208.Idx → EReal) = a4 m c := V_main_arg4 m c
theorem V_w5 (c : Dev nD) : (V m c main_arg5 : S6x192x120.Idx → EReal) = a5 m c := V_main_arg5 m c
theorem V_w6 (c : Dev nD) : (V m c main_arg6 : S1x120.Idx → EReal) = a6 m c := V_main_arg6 m c
theorem V_w7 (c : Dev nD) : (V m c main_arg7 : S120x84.Idx → EReal) = a7 m c := V_main_arg7 m c
theorem V_w8 (c : Dev nD) : (V m c main_arg8 : S1x84.Idx → EReal) = a8 m c := V_main_arg8 m c
theorem V_w9 (c : Dev nD) : (V m c main_arg9 : S84x128.Idx → EReal) = a9 m c := V_main_arg9 m c
theorem V_w10 (c : Dev nD) : (V m c main_arg10 : S1x128.Idx → EReal) = a10 m c := V_main_arg10 m c

/-! ## The blocks -/

/-- The tile window's block at point `t` is rows `256·t …` of the tiles' array. -/
theorem iblk0_apply (c : Dev nD) (t : Fin cfg0.N) (y : S256x96.Idx) (k : S131072x96.Idx)
    (hk0 : (k 0).val = t.val * 256 + (y 0).val) (hk1 : (k 1).val = (y 1).val) :
    (iblk m c 0 t : S256x96.Idx → EReal) y = (V m c main_v4 : S131072x96.Idx → EReal) k := by
  unfold iblk
  rw [View.read_apply]
  show V m c main_v4 _ = V m c main_v4 k
  congr 1
  funext a
  apply Fin.ext
  match a with
  | ⟨0, _⟩ =>
    show win0_0.index t 0 * 256 + 1 * (y 0).val = (k 0).val
    rw [congrFun (idx_0 t) 0, hk0]
    show t.val * 256 + 1 * (y 0).val = _
    omega
  | ⟨1, _⟩ =>
    show win0_0.index t 1 * 96 + 1 * (y 1).val = (k 1).val
    rw [congrFun (idx_0 t) 1, hk1]
    show 0 * 96 + 1 * (y 1).val = _
    omega

/-- Image `i` of point `t`'s tile is image `8·t + i` of the batch. -/
theorem tile_image (c : Dev nD) (t : Fin cfg0.N) (i : ℕ) (hi : i < 8) :
    pick 8 i (toM (iblk m c 0 t : S256x96.Idx → EReal)) = img (a0 m c) (t.val * 8 + i) := by
  have ht : t.val < 512 := by have h := t.isLt; have hN : cfg0.N = 512 := N_0; omega
  funext h l
  unfold pick img
  by_cases hhl : h < 32 ∧ l < 96
  · have hr : h * 8 + i < 256 := by omega
    rw [toM_of_lt _ (h * 8 + i) l hr hhl.2, dif_pos ⟨by omega, hhl.1, hhl.2⟩,
      iblk0_apply m c t (ix2 ⟨h * 8 + i, hr⟩ ⟨l, hhl.2⟩)
        (ix2 ⟨t.val * 256 + (h * 8 + i), by omega⟩ ⟨l, hhl.2⟩) rfl rfl, V_x]
    exact rows_apply _ _ _ _ _ _ ⟨t.val, ht⟩ ⟨h, hhl.1⟩ ⟨i, hi⟩ ⟨l, hhl.2⟩ _
      (by show t.val * 256 + (h * 8 + i) = (t.val * 32 + h) * 8 + i; omega) _ rfl _ rfl _ rfl
  · rw [toM_of_not _ _ _ (fun hh => hhl ⟨by omega, hh.2⟩), dif_neg (fun hh => hhl ⟨hh.2.1, hh.2.2⟩)]

/-- Window 1's block at every point is its whole array: argument 1. -/
theorem blk_1 (c : Dev nD) (t : Fin cfg0.N) : (iblk m c 1 t : S3x96x180.Idx → EReal) = a1 m c := by
  rw [← V_w1 m c]
  funext y
  unfold iblk
  rw [View.read_apply]
  show V m c main_arg1 _ = V m c main_arg1 y
  congr 1
  funext a
  apply Fin.ext
  match a with
  | ⟨0, _⟩ =>
    show win0_1.index t 0 * 3 + 1 * (y 0).val = (y 0).val
    rw [congrFun (idx_1 t) 0]
    show 0 * 3 + 1 * (y 0).val = (y 0).val
    omega
  | ⟨1, _⟩ =>
    show win0_1.index t 1 * 96 + 1 * (y 1).val = (y 1).val
    rw [congrFun (idx_1 t) 1]
    show 0 * 96 + 1 * (y 1).val = (y 1).val
    omega
  | ⟨2, _⟩ =>
    show win0_1.index t 2 * 180 + 1 * (y 2).val = (y 2).val
    rw [congrFun (idx_1 t) 2]
    show 0 * 180 + 1 * (y 2).val = (y 2).val
    omega

/-- Window 2's block at every point is its whole array: argument 2. -/
theorem blk_2 (c : Dev nD) (t : Fin cfg0.N) : (iblk m c 2 t : S1x180.Idx → EReal) = a2 m c := by
  rw [← V_w2 m c]
  funext y
  unfold iblk
  rw [View.read_apply]
  show V m c main_arg2 _ = V m c main_arg2 y
  congr 1
  funext a
  apply Fin.ext
  match a with
  | ⟨0, _⟩ =>
    show win0_2.index t 0 * 1 + 1 * (y 0).val = (y 0).val
    rw [congrFun (idx_2 t) 0]
    show 0 * 1 + 1 * (y 0).val = (y 0).val
    omega
  | ⟨1, _⟩ =>
    show win0_2.index t 1 * 180 + 1 * (y 1).val = (y 1).val
    rw [congrFun (idx_2 t) 1]
    show 0 * 180 + 1 * (y 1).val = (y 1).val
    omega

/-- Window 3's block at every point is its whole array: argument 3. -/
theorem blk_3 (c : Dev nD) (t : Fin cfg0.N) : (iblk m c 3 t : S3x174x208.Idx → EReal) = a3 m c := by
  rw [← V_w3 m c]
  funext y
  unfold iblk
  rw [View.read_apply]
  show V m c main_arg3 _ = V m c main_arg3 y
  congr 1
  funext a
  apply Fin.ext
  match a with
  | ⟨0, _⟩ =>
    show win0_3.index t 0 * 3 + 1 * (y 0).val = (y 0).val
    rw [congrFun (idx_3 t) 0]
    show 0 * 3 + 1 * (y 0).val = (y 0).val
    omega
  | ⟨1, _⟩ =>
    show win0_3.index t 1 * 174 + 1 * (y 1).val = (y 1).val
    rw [congrFun (idx_3 t) 1]
    show 0 * 174 + 1 * (y 1).val = (y 1).val
    omega
  | ⟨2, _⟩ =>
    show win0_3.index t 2 * 208 + 1 * (y 2).val = (y 2).val
    rw [congrFun (idx_3 t) 2]
    show 0 * 208 + 1 * (y 2).val = (y 2).val
    omega

/-- Window 4's block at every point is its whole array: argument 4. -/
theorem blk_4 (c : Dev nD) (t : Fin cfg0.N) : (iblk m c 4 t : S1x208.Idx → EReal) = a4 m c := by
  rw [← V_w4 m c]
  funext y
  unfold iblk
  rw [View.read_apply]
  show V m c main_arg4 _ = V m c main_arg4 y
  congr 1
  funext a
  apply Fin.ext
  match a with
  | ⟨0, _⟩ =>
    show win0_4.index t 0 * 1 + 1 * (y 0).val = (y 0).val
    rw [congrFun (idx_4 t) 0]
    show 0 * 1 + 1 * (y 0).val = (y 0).val
    omega
  | ⟨1, _⟩ =>
    show win0_4.index t 1 * 208 + 1 * (y 1).val = (y 1).val
    rw [congrFun (idx_4 t) 1]
    show 0 * 208 + 1 * (y 1).val = (y 1).val
    omega

/-- Window 5's block at every point is its whole array: argument 5. -/
theorem blk_5 (c : Dev nD) (t : Fin cfg0.N) : (iblk m c 5 t : S6x192x120.Idx → EReal) = a5 m c := by
  rw [← V_w5 m c]
  funext y
  unfold iblk
  rw [View.read_apply]
  show V m c main_arg5 _ = V m c main_arg5 y
  congr 1
  funext a
  apply Fin.ext
  match a with
  | ⟨0, _⟩ =>
    show win0_5.index t 0 * 6 + 1 * (y 0).val = (y 0).val
    rw [congrFun (idx_5 t) 0]
    show 0 * 6 + 1 * (y 0).val = (y 0).val
    omega
  | ⟨1, _⟩ =>
    show win0_5.index t 1 * 192 + 1 * (y 1).val = (y 1).val
    rw [congrFun (idx_5 t) 1]
    show 0 * 192 + 1 * (y 1).val = (y 1).val
    omega
  | ⟨2, _⟩ =>
    show win0_5.index t 2 * 120 + 1 * (y 2).val = (y 2).val
    rw [congrFun (idx_5 t) 2]
    show 0 * 120 + 1 * (y 2).val = (y 2).val
    omega

/-- Window 6's block at every point is its whole array: argument 6. -/
theorem blk_6 (c : Dev nD) (t : Fin cfg0.N) : (iblk m c 6 t : S1x120.Idx → EReal) = a6 m c := by
  rw [← V_w6 m c]
  funext y
  unfold iblk
  rw [View.read_apply]
  show V m c main_arg6 _ = V m c main_arg6 y
  congr 1
  funext a
  apply Fin.ext
  match a with
  | ⟨0, _⟩ =>
    show win0_6.index t 0 * 1 + 1 * (y 0).val = (y 0).val
    rw [congrFun (idx_6 t) 0]
    show 0 * 1 + 1 * (y 0).val = (y 0).val
    omega
  | ⟨1, _⟩ =>
    show win0_6.index t 1 * 120 + 1 * (y 1).val = (y 1).val
    rw [congrFun (idx_6 t) 1]
    show 0 * 120 + 1 * (y 1).val = (y 1).val
    omega

/-- Window 7's block at every point is its whole array: argument 7. -/
theorem blk_7 (c : Dev nD) (t : Fin cfg0.N) : (iblk m c 7 t : S120x84.Idx → EReal) = a7 m c := by
  rw [← V_w7 m c]
  funext y
  unfold iblk
  rw [View.read_apply]
  show V m c main_arg7 _ = V m c main_arg7 y
  congr 1
  funext a
  apply Fin.ext
  match a with
  | ⟨0, _⟩ =>
    show win0_7.index t 0 * 120 + 1 * (y 0).val = (y 0).val
    rw [congrFun (idx_7 t) 0]
    show 0 * 120 + 1 * (y 0).val = (y 0).val
    omega
  | ⟨1, _⟩ =>
    show win0_7.index t 1 * 84 + 1 * (y 1).val = (y 1).val
    rw [congrFun (idx_7 t) 1]
    show 0 * 84 + 1 * (y 1).val = (y 1).val
    omega

/-- Window 8's block at every point is its whole array: argument 8. -/
theorem blk_8 (c : Dev nD) (t : Fin cfg0.N) : (iblk m c 8 t : S1x84.Idx → EReal) = a8 m c := by
  rw [← V_w8 m c]
  funext y
  unfold iblk
  rw [View.read_apply]
  show V m c main_arg8 _ = V m c main_arg8 y
  congr 1
  funext a
  apply Fin.ext
  match a with
  | ⟨0, _⟩ =>
    show win0_8.index t 0 * 1 + 1 * (y 0).val = (y 0).val
    rw [congrFun (idx_8 t) 0]
    show 0 * 1 + 1 * (y 0).val = (y 0).val
    omega
  | ⟨1, _⟩ =>
    show win0_8.index t 1 * 84 + 1 * (y 1).val = (y 1).val
    rw [congrFun (idx_8 t) 1]
    show 0 * 84 + 1 * (y 1).val = (y 1).val
    omega

/-- Window 9's block at every point is its whole array: argument 9. -/
theorem blk_9 (c : Dev nD) (t : Fin cfg0.N) : (iblk m c 9 t : S84x128.Idx → EReal) = a9 m c := by
  rw [← V_w9 m c]
  funext y
  unfold iblk
  rw [View.read_apply]
  show V m c main_arg9 _ = V m c main_arg9 y
  congr 1
  funext a
  apply Fin.ext
  match a with
  | ⟨0, _⟩ =>
    show win0_9.index t 0 * 84 + 1 * (y 0).val = (y 0).val
    rw [congrFun (idx_9 t) 0]
    show 0 * 84 + 1 * (y 0).val = (y 0).val
    omega
  | ⟨1, _⟩ =>
    show win0_9.index t 1 * 128 + 1 * (y 1).val = (y 1).val
    rw [congrFun (idx_9 t) 1]
    show 0 * 128 + 1 * (y 1).val = (y 1).val
    omega

/-- Window 10's block at every point is its whole array: argument 10. -/
theorem blk_10 (c : Dev nD) (t : Fin cfg0.N) : (iblk m c 10 t : S1x128.Idx → EReal) = a10 m c := by
  rw [← V_w10 m c]
  funext y
  unfold iblk
  rw [View.read_apply]
  show V m c main_arg10 _ = V m c main_arg10 y
  congr 1
  funext a
  apply Fin.ext
  match a with
  | ⟨0, _⟩ =>
    show win0_10.index t 0 * 1 + 1 * (y 0).val = (y 0).val
    rw [congrFun (idx_10 t) 0]
    show 0 * 1 + 1 * (y 0).val = (y 0).val
    omega
  | ⟨1, _⟩ =>
    show win0_10.index t 1 * 128 + 1 * (y 1).val = (y 1).val
    rw [congrFun (idx_10 t) 1]
    show 0 * 128 + 1 * (y 1).val = (y 1).val
    omega

/-! ## What a point writes back -/

/-- The result array the reference leaves: row `b` holds the network's 128 lanes for image `b`. -/
def lanes (c : Dev nD) : S4096x128.Idx → EReal :=
  fun k => lenet (a0 m c) (a1 m c) (a2 m c) (a3 m c) (a4 m c) (a5 m c) (a6 m c) (a7 m c) (a8 m c) (a9 m c) (a10 m c) (k 0).val (k 1).val

theorem lanes_apply (c : Dev nD) (k : S4096x128.Idx) :
    lanes m c k = lenet (a0 m c) (a1 m c) (a2 m c) (a3 m c) (a4 m c) (a5 m c) (a6 m c) (a7 m c) (a8 m c) (a9 m c) (a10 m c) (k 0).val (k 1).val := rfl

/-- Row `r`, lane `j` of what point `t` stores: lane `j` of the network on image `8·t + r`. -/
theorem out_apply (c : Dev nD) (t : Fin cfg0.N) (r : Fin 8) (j : Fin 128) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : S8x128.Idx → EReal) (ix2 r j)
      = lenet (a0 m c) (a1 m c) (a2 m c) (a3 m c) (a4 m c) (a5 m c) (a6 m c) (a7 m c) (a8 m c) (a9 m c) (a10 m c) (t.val * 8 + r.val) j.val := by
  refine (toM_val (A := 8) (B := 128) (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) r j).symm.trans ?_
  rw [Cert.ReferenceIdeal.Body.toM_out, blk_1 m c t, blk_2 m c t, blk_3 m c t, blk_4 m c t, blk_5 m c t, blk_6 m c t, blk_7 m c t, blk_8 m c t, blk_9 m c t, blk_10 m c t]
  have e2 : ∀ f : M, f r.val j.val = pick 8 r.val f 0 j.val := fun f => by
    unfold pick; rw [Nat.zero_mul, Nat.zero_add]
  refine (e2 _).trans ?_
  rw [pick_net 8 r.val r.isLt, tile_image m c t r.val r.isLt]
  rfl

/-- WHAT POINT `t` WRITES BACK is block `t` of `lanes`. -/
theorem flushed_eq (c : Dev nD) (t : Fin cfg0.N) :
    (dats m 0 c).flushed 11 t = ((cfg0.win 11).blk t).view.read (Elt Ideal) (lanes m c) := by
  show (cfg0.win 11).cut (grid0.coords t) ((dats m 0 c).after 11 t) = _
  rw [after0_11]
  funext (y : S8x128.Idx)
  rw [View.read_apply]
  obtain ⟨r, j, rfl⟩ : ∃ (r : Fin 8) (j : Fin 128), y = ix2 r j := ⟨y 0, y 1, eq_ix2 y⟩
  show (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : S8x128.Idx → EReal) (ix2 r j)
    = lanes m c (((cfg0.win 11).blk t).view.emb (ix2 r j))
  have e0 : ((((cfg0.win 11).blk t).view.emb (ix2 r j)) 0).val = t.val * 8 + r.val := by
    show win0_11.index t 0 * 8 + 1 * r.val = _
    rw [congrFun (idx_11 t) 0]
    show t.val * 8 + 1 * r.val = _
    omega
  have e1 : ((((cfg0.win 11).blk t).view.emb (ix2 r j)) 1).val = j.val := by
    show win0_11.index t 1 * 128 + 1 * j.val = _
    rw [congrFun (idx_11 t) 1]
    show 0 * 128 + 1 * j.val = _
    omega
  rw [lanes_apply, e0, e1]
  exact out_apply m c t r j

/-- An index of the result array is in point `t`'s block iff each coordinate is in the block's range on its axis. -/
theorem mem_blk (t : Fin cfg0.N) (i : S4096x128.Idx) :
    i ∈ ((cfg0.win 11).blk t).view.set ↔ ∀ a : Fin 2, win0_11.index t a * S8x128.size a ≤ (i a).val ∧ (i a).val < win0_11.index t a * S8x128.size a + S8x128.size a := by
  show i ∈ ((View.whole main_v5).slice (win0_11.rect t)).set ↔ _
  rw [View.set_slice_whole, Rect.mem_set_unit]
  exact Iff.rfl

/-- The result array after the region: every row is some point's, so the array is `lanes`. -/
theorem final (c : Dev nD) : (dats m 0 c).arrAt 11 cfg0.N = lanes m c :=
  (dats m 0 c).arrAt_eq_of_cover 11 (lanes m c) (fun t _ => flushed_eq m c t) fun i => by
    have hi0 : (i 0).val < 4096 := (i 0).isLt
    have hi1 : (i 1).val < 128 := (i 1).isLt
    have hN : cfg0.N = 512 := N_0
    refine ⟨⟨(i 0).val / 8, by rw [hN]; omega⟩, flush0_11 _, ?_⟩
    rw [mem_blk]
    intro a
    match a with
    | ⟨0, _⟩ =>
      show win0_11.index ⟨(i 0).val / 8, _⟩ 0 * 8 ≤ (i 0).val ∧ (i 0).val < win0_11.index ⟨(i 0).val / 8, _⟩ 0 * 8 + 8
      rw [congrFun (idx_11 _) 0]
      show (i 0).val / 8 * 8 ≤ (i 0).val ∧ (i 0).val < (i 0).val / 8 * 8 + 8
      omega
    | ⟨1, _⟩ =>
      show win0_11.index ⟨(i 0).val / 8, _⟩ 1 * 128 ≤ (i 1).val ∧ (i 1).val < win0_11.index ⟨(i 0).val / 8, _⟩ 1 * 128 + 128
      rw [congrFun (idx_11 _) 1]
      show 0 * 128 ≤ (i 1).val ∧ (i 1).val < 0 * 128 + 128
      omega

end Cert.ReferenceIdeal.Hand

end
-- ==== Proof.RRun.lean ====
/-
  The reference's run: after the region the host keeps the first ten lanes of every row of the result array, which holds the
  network's 128 lanes for every image; so the program's result is `Cert.Net.result` of the argument arrays.
-/
import proofs.«161973_g2000107156690142_pallasbulk_525_2_alg».proof.Proof.RValue
import Idealize.ShloMosaic.Lib.StableHlo.Run
import Idealize.ShloMosaic.Lib.Tactic

set_option maxRecDepth 16384

noncomputable section

open Idealize.ShloMosaic Idealize.ShloMosaic.ValueIdx Idealize.ShloMosaic.TcCoe Idealize.SL.Sem
open Idealize.ShloMosaic.Pipeline (Dat)

namespace Cert.ReferenceIdeal.Hand

open Cert.ReferenceIdeal Cert.ReferenceIdeal.Gen Cert.LibTileMaps Cert.Net

variable (m : (ℓ : Loc nD τ sig) → Buf (Elt Ideal) ℓ) (ρ : Dev nD → PrngReg)

/-! ## The host's last line and the run -/

/-- The first ten lanes of `lanes` are the result. -/
theorem lanes_cols (c : Dev nD) (j : S4096x10.Idx) (h : (j 1).val < 128) :
    lanes m c (ix2 (j 0) ⟨(j 1).val, h⟩) = result (a0 m c) (a1 m c) (a2 m c) (a3 m c) (a4 m c) (a5 m c) (a6 m c) (a7 m c) (a8 m c) (a9 m c) (a10 m c) j := rfl

/-- The result array as the host's last line finds it. -/
theorem arr_out (c : Dev nD) :
    Pipeline.withArrays (cfgs 0).spec c (V0 m c) (fun w => (dats m 0 c).arrAt w (cfgs 0).N) (Proc.tc.devRef main_v5)
      = (dats m 0 c).arrAt 11 cfg0.N :=
  Pipeline.withArrays_arr spec0 launch0.win.arr_inj c _ _ 11

/-- The first ten columns of any 4096 × 128 matrix, at `(b, l)`: the matrix at `(b, l)`. -/
theorem slice10 (f : S4096x128.Idx → EReal) (j : S4096x10.Idx) (h : (j 1).val < 128) :
    extractStridedSlice S4096x10 ![0, 0] f slices_S4096x128_S4096x10_0_0 j = f (ix2 (j 0) ⟨(j 1).val, h⟩) :=
  extractStridedSlice_apply ![0, 0] f slices_S4096x128_S4096x10_0_0 j (ix2 (j 0) ⟨(j 1).val, h⟩) fun a => by
    match a with
    | ⟨0, _⟩ => show (j 0).val = 0 + (j 0).val; omega
    | ⟨1, _⟩ => show (j 1).val = 0 + (j 1).val; omega

/-- The program's result: the first ten lanes of every image's output. -/
theorem tail_eq (c : Dev nD) :
    Pipeline.afterTail₀ cfgs (dats m) 0 (V0 m) [hostOps1] c main_v6
      = result (a0 m c) (a1 m c) (a2 m c) (a3 m c) (a4 m c) (a5 m c) (a6 m c) (a7 m c) (a8 m c) (a9 m c) (a10 m c) := by
  unfold Pipeline.afterTail₀
  show StableHlo.after hostOps1 _ (Proc.devRef .tc main_v6) = _
  after_results
  rw [arr_out m c, final m c]
  funext j
  have h : (j 1).val < 128 := by have h' : (j 1).val < 10 := (j 1).isLt; omega
  exact (slice10 (lanes m c) j h).trans (lanes_cols m c j h)

/-- Every weakly fair execution of the reference terminates with its result at `result` of the argument arrays. -/
theorem run_value : θ_run defs (onTc (τ := τ) (main (F := Ideal))) ⟨m, fun _ => 0, ρ⟩ (fun r => ∀ c : Dev nD,
      r.2.mem ((c.tc : Thread nD τ).loc main_v6) = result (a0 m c) (a1 m c) (a2 m c) (a3 m c) (a4 m c) (a5 m c) (a6 m c) (a7 m c) (a8 m c) (a9 m c) (a10 m c)) :=
  (θ_run defs _ _).mono (fun _ h c =>
      ((h c).2 main_v6 (Pipeline.mem_restRefs_of main_v6 (by decide) (by decide))).trans (tail_eq m c))
    (run_main m ρ)

end Cert.ReferenceIdeal.Hand

end
-- ==== Proof.lean ====
/-
  A fused LeNet forward pass, tiled two ways, computes one function of the batch.

  Both programs re-lay the batch of 4096 images `[4096, 3, 32, 32]` as rows of tiles (row `h·tb + i` of a tile is row `h` of
  its image `i`, lane `3·w + ch`), run one network per tile on a grid, and keep the first ten of each image's 128 output
  lanes. The kernel's tiles hold 128 images and its body changes float format at several places; the reference's tiles hold
  8 images. Over the extended reals a change of float format is the identity, and every step of the network — a banded
  convolution as three products on rows shifted by multiples of the tile size, a bias row, a maximum with 0, a 2 × 2
  maximum pool by a row shift and a lane shift, dense layers — acts on each image of a tile by itself. So image `i` of a
  tile's result is the one-image network on image `i`, whatever the tile size (`Cert.Net.pick_net`), and both programs end
  at `Cert.Net.result` of the argument arrays: the same sums in the same order, so no law of the extended reals beyond
  `max 0 0 = 0`, `0 + 0 = 0` and `0 · x = 0` (for reading matrices outside their extents) is used, and the finiteness of
  the inputs is not needed.

  The three frames are the generated ones; the kernel's idealization rewrote nothing, so `preserves` is `True`.
-/
import proofs.«161973_g2000107156690142_pallasbulk_525_2_alg».proof.Defs
import proofs.«161973_g2000107156690142_pallasbulk_525_2_alg».proof.Proof.Gen.Kernel
import proofs.«161973_g2000107156690142_pallasbulk_525_2_alg».proof.Proof.Gen.Kernel.Skeleton
import proofs.«161973_g2000107156690142_pallasbulk_525_2_alg».proof.Proof.Gen.Kernel.Launch
import proofs.«161973_g2000107156690142_pallasbulk_525_2_alg».proof.Proof.Gen.Kernel.Points
import proofs.«161973_g2000107156690142_pallasbulk_525_2_alg».proof.Proof.Gen.Kernel.Frame
import proofs.«161973_g2000107156690142_pallasbulk_525_2_alg».proof.Proof.Gen.KernelIdeal
import proofs.«161973_g2000107156690142_pallasbulk_525_2_alg».proof.Proof.Gen.KernelIdeal.Skeleton
import proofs.«161973_g2000107156690142_pallasbulk_525_2_alg».proof.Proof.Gen.KernelIdeal.Launch
import proofs.«161973_g2000107156690142_pallasbulk_525_2_alg».proof.Proof.Gen.KernelIdeal.Points
import proofs.«161973_g2000107156690142_pallasbulk_525_2_alg».proof.Proof.Gen.KernelIdeal.Frame
import proofs.«161973_g2000107156690142_pallasbulk_525_2_alg».proof.Proof.Gen.ReferenceIdeal
import proofs.«161973_g2000107156690142_pallasbulk_525_2_alg».proof.Proof.Gen.ReferenceIdeal.Skeleton
import proofs.«161973_g2000107156690142_pallasbulk_525_2_alg».proof.Proof.Gen.ReferenceIdeal.Launch
import proofs.«161973_g2000107156690142_pallasbulk_525_2_alg».proof.Proof.Gen.ReferenceIdeal.Points
import proofs.«161973_g2000107156690142_pallasbulk_525_2_alg».proof.Proof.Gen.ReferenceIdeal.Frame
import proofs.«161973_g2000107156690142_pallasbulk_525_2_alg».proof.Proof.Gen.Pre_finite_inputs
import Idealize.ShloMosaic.Adequacy
import Idealize.ShloMosaic.Init
import proofs.«161973_g2000107156690142_pallasbulk_525_2_alg».proof.Proof.LibRunBoth
import proofs.«161973_g2000107156690142_pallasbulk_525_2_alg».proof.Proof.KRun
import proofs.«161973_g2000107156690142_pallasbulk_525_2_alg».proof.Proof.RRun

noncomputable section

namespace Cert.Proof

open Idealize.ShloMosaic Idealize.SL.Sem

namespace LeNetClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation of the kernel. -/
theorem preserves : Cert.preserves_Kernel_KernelIdeal := trivial

/-- The result is a function of the argument arrays alone. -/
theorem result_congr {x x' : (⟨4, ![4096, 3, 32, 32]⟩ : Shape).Idx → EReal} {w1 w1' : (⟨3, ![3, 96, 180]⟩ : Shape).Idx → EReal}
    {b1 b1' : (⟨2, ![1, 180]⟩ : Shape).Idx → EReal} {w2 w2' : (⟨3, ![3, 174, 208]⟩ : Shape).Idx → EReal}
    {b2 b2' : (⟨2, ![1, 208]⟩ : Shape).Idx → EReal} {f1 f1' : (⟨3, ![6, 192, 120]⟩ : Shape).Idx → EReal}
    {bf1 bf1' : (⟨2, ![1, 120]⟩ : Shape).Idx → EReal} {f2 f2' : (⟨2, ![120, 84]⟩ : Shape).Idx → EReal}
    {bf2 bf2' : (⟨2, ![1, 84]⟩ : Shape).Idx → EReal} {f3 f3' : (⟨2, ![84, 128]⟩ : Shape).Idx → EReal}
    {bf3 bf3' : (⟨2, ![1, 128]⟩ : Shape).Idx → EReal}
    (h0 : x' = x) (h1 : w1' = w1) (h2 : b1' = b1) (h3 : w2' = w2) (h4 : b2' = b2) (h5 : f1' = f1) (h6 : bf1' = bf1)
    (h7 : f2' = f2) (h8 : bf2' = bf2) (h9 : f3' = f3) (h10 : bf3' = bf3) :
    Cert.Net.result x' w1' b1' w2' b2' f1' bf1' f2' bf2' f3' bf3' = Cert.Net.result x w1 b1 w2 b2 f1 bf1 f2 bf2 f3 bf3 := by
  subst h0 h1 h2 h3 h4 h5 h6 h7 h8 h9 h10
  rfl

/-- From memories agreeing on the arguments, the kernel (tiles of 128 images) and the reference (tiles of 8) both end with
    the first ten output lanes of the network on every image, and their arguments unchanged. -/
theorem algebraic : Cert.algebraic_KernelIdeal_ReferenceIdeal := by
  intro m ρ m' ρ' _ hagree
  refine ⟨fun c => Cert.Net.result (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c) (Cert.KernelIdeal.Hand.a6 m c) (Cert.KernelIdeal.Hand.a7 m c) (Cert.KernelIdeal.Hand.a8 m c) (Cert.KernelIdeal.Hand.a9 m c) (Cert.KernelIdeal.Hand.a10 m c), ?_, ?_⟩
  · exact (θ_run Cert.KernelIdeal.defs _ _).mono (fun _ h c => ⟨h.1 c, h.2 c⟩)
      (θ_run_both _ _ _ _ _ (Cert.KernelIdeal.Hand.run_value m ρ) (Cert.KernelIdeal.Gen.frame m ρ))
  · refine (θ_run Cert.ReferenceIdeal.defs _ _).mono (fun _ h c => ⟨(h.1 c).trans ?_, h.2 c⟩)
      (θ_run_both _ _ _ _ _ (Cert.ReferenceIdeal.Hand.run_value m' ρ') (Cert.ReferenceIdeal.Gen.frame m' ρ'))
    obtain ⟨e0, e1, e2, e3, e4, e5, e6, e7, e8, e9, e10⟩ := hagree c
    exact result_congr e0 e1 e2 e3 e4 e5 e6 e7 e8 e9 e10

end LeNetClaims

theorem claim : Cert.Claim :=
  ⟨Cert.Kernel.Gen.facts, Cert.KernelIdeal.Gen.facts, Cert.ReferenceIdeal.Gen.facts, Cert.Pre_finite_inputs.Gen.facts,
    LeNetClaims.frame_k, LeNetClaims.frame_ki, LeNetClaims.frame_ri, LeNetClaims.preserves, LeNetClaims.algebraic⟩

end Cert.Proof

end
